-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : IVec S1600000 32) (main_arg2 : IVec S1600000 32) (main_arg3 : FVec F S128x128 .f32) (main_arg4 : FVec F S128 .f32) (main_arg5 : FVec F S128x64 .f32) (main_arg6 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg5
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg6 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S5000x128 : Shape := ⟨2, ![5000, 128]⟩
abbrev S5000x1 : Shape := ⟨2, ![5000, 1]⟩
abbrev S1600000x128 : Shape := ⟨2, ![1600000, 128]⟩
abbrev S1x128 : Shape := ⟨2, ![1, 128]⟩
abbrev S100000x64 : Shape := ⟨2, ![100000, 64]⟩
abbrev S5000x64 : Shape := ⟨2, ![5000, 64]⟩
abbrev S1600000x64 : Shape := ⟨2, ![1600000, 64]⟩
abbrev S1x64 : Shape := ⟨2, ![1, 64]⟩

abbrev nBuf : Space → Nat
  | .hbm => 63
  | .vmem => 28
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S100000, .f32⟩
  | .hbm, ⟨11, _⟩ => ⟨S1600000x1, .i32⟩
  | .hbm, ⟨12, _⟩ => ⟨S100000, .f32⟩
  | .hbm, ⟨13, _⟩ => ⟨S_, .f32⟩
  | .hbm, ⟨14, _⟩ => ⟨S_, .f32⟩
  | .hbm, ⟨15, _⟩ => ⟨S100000, .f32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S1600000x1, .i32⟩
  | .hbm, ⟨20, _⟩ => ⟨S100000, .f32⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S100000x128, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000x128, .f32⟩
  | .hbm, ⟨38, _⟩ => ⟨S_, .f32⟩
  | .hbm, ⟨39, _⟩ => ⟨S100000x128, .f32⟩
  | .hbm, ⟨40, _⟩ => ⟨S1600000x1, .i32⟩
  | .hbm, ⟨41, _⟩ => ⟨S100000x128, .f32⟩
  | .hbm, ⟨42, _⟩ => ⟨S100000x1, .f32⟩
  | .hbm, ⟨43, _⟩ => ⟨S1x128, .f32⟩
  | .hbm, ⟨44, _⟩ => ⟨S100000x128, .f32⟩
  | .hbm, ⟨45, _⟩ => ⟨S100000x1, .f32⟩
  | .hbm, ⟨46, _⟩ => ⟨S100000x64, .f32⟩
  | .hbm, ⟨47, _⟩ => ⟨S_, .i32⟩
  | .hbm, ⟨48, _⟩ => ⟨S1600000, .i32⟩
  | .hbm, ⟨49, _⟩ => ⟨S1600000, .i1⟩
  | .hbm, ⟨50, _⟩ => ⟨S_, .i32⟩
  | .hbm, ⟨51, _⟩ => ⟨S1600000, .i32⟩
  | .hbm, ⟨52, _⟩ => ⟨S1600000, .i32⟩
  | .hbm, ⟨53, _⟩ => ⟨S1600000, .i32⟩
  | .hbm, ⟨54, _⟩ => ⟨S1600000x1, .i32⟩
  | .hbm, ⟨55, _⟩ => ⟨S1600000x64, .f32⟩
  | .hbm, ⟨56, _⟩ => ⟨S_, .f32⟩
  | .hbm, ⟨57, _⟩ => ⟨S100000x64, .f32⟩
  | .hbm, ⟨58, _⟩ => ⟨S1600000x1, .i32⟩
  | .hbm, ⟨59, _⟩ => ⟨S100000x64, .f32⟩
  | .hbm, ⟨60, _⟩ => ⟨S100000x1, .f32⟩
  | .hbm, ⟨61, _⟩ => ⟨S1x64, .f32⟩
  | .hbm, ⟨62, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128x64, .f32⟩
  | .local _ .vmem, ⟨17, _⟩ => ⟨S5000x1, .f32⟩
  | .local _ .vmem, ⟨18, _⟩ => ⟨S5000x1, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x1, .f32⟩
  | .local _ .vmem, ⟨24, _⟩ => ⟨S5000x1, .f32⟩
  | .local _ .vmem, ⟨25, _⟩ => ⟨S1x64, .f32⟩
  | .local _ .vmem, ⟨26, _⟩ => ⟨S5000x64, .f32⟩
  | .local _ .vmem, ⟨27, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_call0_v0 : Ref sig .tc := ⟨.hbm, 14, rfl⟩
abbrev main_call0_v1 : Ref sig .tc := ⟨.hbm, 15, rfl⟩
abbrev main_v4 : Ref sig .tc := ⟨.hbm, 16, rfl⟩
abbrev main_cst_2 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_3 : Ref sig .tc := ⟨.hbm, 21, rfl⟩
abbrev main_call1_v0 : Ref sig .tc := ⟨.hbm, 22, rfl⟩
abbrev main_call1_v1 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_c : Ref sig .tc := ⟨.hbm, 29, rfl⟩
abbrev main_v13 : Ref sig .tc := ⟨.hbm, 30, rfl⟩
abbrev main_v14 : Ref sig .tc := ⟨.hbm, 31, rfl⟩
abbrev main_c_4 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_5 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_call2_v0 : Ref sig .tc := ⟨.hbm, 42, rfl⟩
abbrev main_call2_v1 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_c_6 : Ref sig .tc := ⟨.hbm, 47, rfl⟩
abbrev main_v26 : Ref sig .tc := ⟨.hbm, 48, rfl⟩
abbrev main_v27 : Ref sig .tc := ⟨.hbm, 49, rfl⟩
abbrev main_c_7 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_cst_8 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_call3_v0 : Ref sig .tc := ⟨.hbm, 60, rfl⟩
abbrev main_call3_v1 : Ref sig .tc := ⟨.hbm, 61, rfl⟩
abbrev main_v36 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem3_1 : DmaSem sig := 27

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S100000_S1600000x1_S1600000_n_0_0_1_wf : ScatterDims.WF S100000 S1600000x1 S1600000 [] [0] [0] 1
  dot_S5000x128_S128x128_S5000x128_1_0_0_1_n_n_wf : DotDims.WF S5000x128 S128x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S100000x64.size a
  hwx2_3 : ∀ i : grid2.Coords, EltTy.bits .f32 = 32 ∨ (Rect.block (s := S100000x64) S5000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S100000x1.size a
  hwx3_1 : ∀ i : grid3.Coords, EltTy.bits .f32 = 32 ∨ (Rect.block (s := S100000x1) S5000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x64.size a ≤ S100000x64.size a
  hwx3_3 : ∀ i : grid3.Coords, EltTy.bits .f32 = 32 ∨ (Rect.block (s := S100000x64) S5000x64.size (cc3_transform_3 i) (hinb3_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v22) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call2_v0) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_call2_v1) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v23) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v23) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v24) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v25) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v35) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_call3_v0) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_call3_v1) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v36) S5000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S100000x64 : Shape := ⟨2, ![100000, 64]⟩
abbrev S1600000x64 : Shape := ⟨2, ![1600000, 64]⟩
abbrev S1x64 : Shape := ⟨2, ![1, 64]⟩

abbrev nBuf : Space → Nat
  | .hbm => 76
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S100000, .f32⟩
  | .hbm, ⟨11, _⟩ => ⟨S1600000x1, .i32⟩
  | .hbm, ⟨12, _⟩ => ⟨S100000, .f32⟩
  | .hbm, ⟨13, _⟩ => ⟨S_, .f32⟩
  | .hbm, ⟨14, _⟩ => ⟨S_, .f32⟩
  | .hbm, ⟨15, _⟩ => ⟨S100000, .f32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S1600000x1, .i32⟩
  | .hbm, ⟨20, _⟩ => ⟨S100000, .f32⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S100000, .f32⟩
  | .hbm, ⟨27, _⟩ => ⟨S100000x128, .f32⟩
  | .hbm, ⟨28, _⟩ => ⟨S100000x1, .f32⟩
  | .hbm, ⟨29, _⟩ => ⟨S100000x128, .f32⟩
  | .hbm, ⟨30, _⟩ => ⟨S100000x128, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000x128, .f32⟩
  | .hbm, ⟨40, _⟩ => ⟨S_, .f32⟩
  | .hbm, ⟨41, _⟩ => ⟨S100000x128, .f32⟩
  | .hbm, ⟨42, _⟩ => ⟨S1600000x1, .i32⟩
  | .hbm, ⟨43, _⟩ => ⟨S100000x128, .f32⟩
  | .hbm, ⟨44, _⟩ => ⟨S100000x1, .f32⟩
  | .hbm, ⟨45, _⟩ => ⟨S100000x128, .f32⟩
  | .hbm, ⟨46, _⟩ => ⟨S100000x128, .f32⟩
  | .hbm, ⟨47, _⟩ => ⟨S1x128, .f32⟩
  | .hbm, ⟨48, _⟩ => ⟨S100000x128, .f32⟩
  | .hbm, ⟨49, _⟩ => ⟨S100000x128, .f32⟩
  | .hbm, ⟨50, _⟩ => ⟨S_, .f32⟩
  | .hbm, ⟨51, _⟩ => ⟨S100000x128, .f32⟩
  | .hbm, ⟨52, _⟩ => ⟨S100000x128, .f32⟩
  | .hbm, ⟨53, _⟩ => ⟨S100000x64, .f32⟩
  | .hbm, ⟨54, _⟩ => ⟨S100000x1, .f32⟩
  | .hbm, ⟨55, _⟩ => ⟨S100000x64, .f32⟩
  | .hbm, ⟨56, _⟩ => ⟨S100000x64, .f32⟩
  | .hbm, ⟨57, _⟩ => ⟨S_, .i32⟩
  | .hbm, ⟨58, _⟩ => ⟨S1600000, .i32⟩
  | .hbm, ⟨59, _⟩ => ⟨S1600000, .i1⟩
  | .hbm, ⟨60, _⟩ => ⟨S_, .i32⟩
  | .hbm, ⟨61, _⟩ => ⟨S1600000, .i32⟩
  | .hbm, ⟨62, _⟩ => ⟨S1600000, .i32⟩
  | .hbm, ⟨63, _⟩ => ⟨S1600000, .i32⟩
  | .hbm, ⟨64, _⟩ => ⟨S1600000x1, .i32⟩
  | .hbm, ⟨65, _⟩ => ⟨S1600000x64, .f32⟩
  | .hbm, ⟨66, _⟩ => ⟨S_, .f32⟩
  | .hbm, ⟨67, _⟩ => ⟨S100000x64, .f32⟩
  | .hbm, ⟨68, _⟩ => ⟨S1600000x1, .i32⟩
  | .hbm, ⟨69, _⟩ => ⟨S100000x64, .f32⟩
  | .hbm, ⟨70, _⟩ => ⟨S100000x1, .f32⟩
  | .hbm, ⟨71, _⟩ => ⟨S100000x64, .f32⟩
  | .hbm, ⟨72, _⟩ => ⟨S100000x64, .f32⟩
  | .hbm, ⟨73, _⟩ => ⟨S1x64, .f32⟩
  | .hbm, ⟨74, _⟩ => ⟨S100000x64, .f32⟩
  | .hbm, ⟨75, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_call0_v0 : Ref sig .tc := ⟨.hbm, 14, rfl⟩
abbrev main_call0_v1 : Ref sig .tc := ⟨.hbm, 15, rfl⟩
abbrev main_v4 : Ref sig .tc := ⟨.hbm, 16, rfl⟩
abbrev main_cst_2 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_3 : Ref sig .tc := ⟨.hbm, 21, rfl⟩
abbrev main_call1_v0 : Ref sig .tc := ⟨.hbm, 22, rfl⟩
abbrev main_call1_v1 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_4 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_5 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_call2_cst : Ref sig .tc := ⟨.hbm, 50, rfl⟩
abbrev main_call2_v0 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_c_6 : Ref sig .tc := ⟨.hbm, 57, rfl⟩
abbrev main_v36 : Ref sig .tc := ⟨.hbm, 58, rfl⟩
abbrev main_v37 : Ref sig .tc := ⟨.hbm, 59, rfl⟩
abbrev main_c_7 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_8 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S100000x1_S100000x64_0_1 : S100000x1.BroadcastsInDim S100000x64 (![0, 1] : Fin 2 → Fin S100000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.ResultRun.lean ====
/-
  The run of the whole program with its result named: every weakly fair execution terminates without a fault, the
  result buffer holds what the last region's write-backs leave in it, and the seven argument arrays are unchanged.
  The contents of every buffer at each boundary between a stretch of host operations and a region are the fold the
  frame already walks; only the reading of the final memory is new here, at the result as well as at the arguments.
-/
import proofs.«174666_j8392366096425_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of the program terminates, nothing faulting; the
    result array ends at the last boundary's contents of its buffer, and each argument array as launched. -/
theorem run_result : θ_run defs (onTc (τ := τ) (main (F := F))) ⟨m, fun _ => 0, ρ⟩ (fun r => ∀ c : Dev nD,
      r.2.mem ((c.tc : Thread nD τ).loc main_v36) = W14 m ρ c (Proc.devRef .tc main_v36)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v36 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c)⟩)

end Cert.KernelIdeal.Hand

end
-- ==== Proof.Spec.lean ====
/-
  A two-layer graph convolution, entry by entry, on the extended reals.

  Each layer is computed in two dense halves around the neighbourhood sum. Before the sum, a node's feature row is
  multiplied into the layer's weights and scaled by the node's source-side factor: entry `(r, j)` of the result is
  `(∑ k, X r k · W k j) · s r`. After the sum, the aggregated row is scaled by the node's target-side factor and the
  bias is added, `A r j · s r + b j`; the first layer then clamps at zero from below. The factors arrive as a column
  `[nodes, 1]` and the bias as a row `[1, features]`. Nothing here mentions a program: these four functions are what
  both programs are shown to compute at each dense stage.
-/
import Idealize.ShloMosaic.PureOps.Ideal
import Idealize.ShloMosaic.Lib.ValueIdx

noncomputable section

open scoped BigOperators

namespace Cert.Proof.Gcn

open Idealize.ShloMosaic Idealize.ShloMosaic.ValueIdx

/-- Before the neighbourhood sum, 128 output features: `(∑ k, X r k · W k j) · s r`. -/
def scaledProduct128 (X : FVec Ideal ⟨2, ![100000, 128]⟩ .f32) (W : FVec Ideal ⟨2, ![128, 128]⟩ .f32)
    (s : FVec Ideal ⟨2, ![100000, 1]⟩ .f32) : FVec Ideal ⟨2, ![100000, 128]⟩ .f32 :=
  fun i => (∑ k : Fin 128, X (ix2 (i 0) k) * W (ix2 k (i 1))) * s (ix2 (i 0) (0 : Fin 1))

/-- Before the neighbourhood sum, 64 output features: `(∑ k, X r k · W k j) · s r`. -/
def scaledProduct64 (X : FVec Ideal ⟨2, ![100000, 128]⟩ .f32) (W : FVec Ideal ⟨2, ![128, 64]⟩ .f32)
    (s : FVec Ideal ⟨2, ![100000, 1]⟩ .f32) : FVec Ideal ⟨2, ![100000, 64]⟩ .f32 :=
  fun i => (∑ k : Fin 128, X (ix2 (i 0) k) * W (ix2 k (i 1))) * s (ix2 (i 0) (0 : Fin 1))

/-- After the neighbourhood sum of the first layer: `max (A r j · s r + b j) 0`. -/
def scaledBiasedClamped128 (A : FVec Ideal ⟨2, ![100000, 128]⟩ .f32) (s : FVec Ideal ⟨2, ![100000, 1]⟩ .f32)
    (b : FVec Ideal ⟨2, ![1, 128]⟩ .f32) : FVec Ideal ⟨2, ![100000, 128]⟩ .f32 :=
  fun i => max (A i * s (ix2 (i 0) (0 : Fin 1)) + b (ix2 (0 : Fin 1) (i 1))) (Ideal.ofBits .f32 0x00000000#32)

/-- After the neighbourhood sum of the second layer: `A r j · s r + b j`. -/
def scaledBiased64 (A : FVec Ideal ⟨2, ![100000, 64]⟩ .f32) (s : FVec Ideal ⟨2, ![100000, 1]⟩ .f32)
    (b : FVec Ideal ⟨2, ![1, 64]⟩ .f32) : FVec Ideal ⟨2, ![100000, 64]⟩ .f32 :=
  fun i => A i * s (ix2 (i 0) (0 : Fin 1)) + b (ix2 (0 : Fin 1) (i 1))

end Cert.Proof.Gcn

end
-- ==== Proof.PreAgg128.lean ====
/-
  The first layer's dense half before the neighbourhood sum, as the kernel computes it on one block of 5000 rows:
  the block's rows times the whole weight matrix, each row scaled by its node's factor; and the whole array that the
  twenty blocks make up.
-/
import proofs.«174666_j8392366096425_1_alg».proof.Proof.Gen.KernelIdeal.Frame
import proofs.«174666_j8392366096425_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.TcCoe Idealize.ShloMosaic.ValueIdx Idealize.SL.Sem
open Idealize.ShloMosaic.Pipeline (Dat)

namespace Cert.KernelIdeal.Hand

open Cert.KernelIdeal Cert.KernelIdeal.Gen

theorem hz : (![0, 0] : Fin 2 → Nat) = fun _ => 0 := funext fun a => by fin_cases a <;> rfl

/-- The block product's left operand is read at the output's row and the contraction index. -/
theorem blockProduct128_lhs0 (i : S5000x128.Idx) (c : dot_S5000x128_S128x128_S5000x128_1_0_0_1_n_n.contr.Idx) : (dot_S5000x128_S128x128_S5000x128_1_0_0_1_n_n.lhsIdx i c 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem blockProduct128_lhs1 (i : S5000x128.Idx) (c : dot_S5000x128_S128x128_S5000x128_1_0_0_1_n_n.contr.Idx) : (dot_S5000x128_S128x128_S5000x128_1_0_0_1_n_n.lhsIdx i c 1).val = (c ⟨0, by decide⟩).val :=
  dot_S5000x128_S128x128_S5000x128_1_0_0_1_n_n.lhsIdx_val_of_single rfl i c
/-- The right operand is read at the contraction index and the output's column. -/
theorem blockProduct128_rhs0 (i : S5000x128.Idx) (c : dot_S5000x128_S128x128_S5000x128_1_0_0_1_n_n.contr.Idx) : (dot_S5000x128_S128x128_S5000x128_1_0_0_1_n_n.rhsIdx i c 0).val = (c ⟨0, by decide⟩).val :=
  dot_S5000x128_S128x128_S5000x128_1_0_0_1_n_n.rhsIdx_val_of_single rfl i c
theorem blockProduct128_rhs1 (i : S5000x128.Idx) (c : dot_S5000x128_S128x128_S5000x128_1_0_0_1_n_n.contr.Idx) : (dot_S5000x128_S128x128_S5000x128_1_0_0_1_n_n.rhsIdx i c 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- One entry of the block product into a zero accumulator: the sum over the 128 input features of the row's entry
    times the column's. -/
theorem blockProduct128_apply (l : FVec Ideal S5000x128 .bf16) (r : FVec Ideal S128x128 .bf16) (p : Fin 5000) (q : Fin 128) :
    FloatOps.matmul dot_S5000x128_S128x128_S5000x128_1_0_0_1_n_n none l r (constant (F := Ideal) S5000x128 .f32 0x00000000#32) (ix2 p q)
      = ∑ k : Fin 128, l (ix2 p k) * r (ix2 k q) := by
  refine (Ideal.matmul_constant_zero_apply dot_S5000x128_S128x128_S5000x128_1_0_0_1_n_n none l r (ix2 p q)).trans ?_
  rw [← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact blockProduct128_lhs0 _ _
    | ⟨1, _⟩ => exact (blockProduct128_lhs1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (blockProduct128_rhs0 _ _).trans hk
    | ⟨1, _⟩ => exact blockProduct128_rhs1 _ _)
  rw [el, er]

/-- The body's stored value at row `p`, column `q` of the block: the input block's row times the weights' column,
    scaled by the row's factor. The two narrowings of the operands are the identity on the extended reals. -/
theorem pay0_apply (x0 : Vec Ideal S5000x128 .f32) (x1 : Vec Ideal S128x128 .f32) (x2 : Vec Ideal S5000x1 .f32) (p : Fin 5000) (q : Fin 128) :
    k0_pay1 x0 x1 x2 (ix2 p q) = (∑ k : Fin 128, x0 (ix2 p k) * x1 (ix2 k q)) * x2 (ix2 p (0 : Fin 1)) := by
  unfold k0_pay1
  show FloatOps.matmul dot_S5000x128_S128x128_S5000x128_1_0_0_1_n_n none (truncf (F := Ideal) .bf16 x0 bitsLt_bf16_f32) (truncf (F := Ideal) .bf16 x1 bitsLt_bf16_f32) (constant (F := Ideal) S5000x128 .f32 0x00000000#32) (ix2 p q)
      * broadcastTo S5000x128 (shapeCast S5000x1 x2 shapeCasts_S5000x1_S5000x1) broadcasts_S5000x1_S5000x128 (ix2 p q) = _
  refine congrArg₂ (· * ·) ((blockProduct128_apply _ _ p q).trans rfl) ?_
  refine (broadcastTo_apply _ broadcasts_S5000x1_S5000x128 (ix2 p q) (ix2 p (0 : Fin 1)) fun a => ?_).trans (congrFun (shapeCast_self x2 shapeCasts_S5000x1_S5000x1) _)
  match a with
  | ⟨0, _⟩ => show p.val = if (5000 : Nat) = 1 then 0 else p.val; rw [if_neg (by decide)]
  | ⟨1, _⟩ => show 0 = if (1 : Nat) = 1 then 0 else q.val; rw [if_pos rfl]

/-- One stored entry against the whole arrays: when the block's row is the array's row `i 0`, the weights are the
    whole matrix and the factor is that row's, the entry is the specification's at `i`. -/
theorem point0 (X0 : Vec Ideal S5000x128 .f32) (X1 : Vec Ideal S128x128 .f32) (X2 : Vec Ideal S5000x1 .f32)
    (A0 : FVec Ideal S100000x128 .f32) (A1 : FVec Ideal S128x128 .f32) (A2 : FVec Ideal S100000x1 .f32)
    (y : S5000x128.Idx) (i : S100000x128.Idx)
    (h0 : ∀ k : Fin 128, X0 (ix2 (y 0) k) = A0 (ix2 (i 0) k)) (h1 : X1 = A1)
    (h2 : X2 (ix2 (y 0) (0 : Fin 1)) = A2 (ix2 (i 0) (0 : Fin 1))) (hi1 : (i 1).val = (y 1).val) :
    k0_pay1 X0 X1 X2 y = Cert.Proof.Gcn.scaledProduct128 A0 A1 A2 i := by
  subst h1
  obtain ⟨p, q, rfl⟩ : ∃ (p : Fin 5000) (q : Fin 128), y = ix2 p q := ⟨y 0, y 1, eq_ix2 y⟩
  have hq : i 1 = q := Fin.ext hi1
  have h0' : ∀ k : Fin 128, X0 (ix2 p k) = A0 (ix2 (i 0) k) := h0
  have h2' : X2 (ix2 p (0 : Fin 1)) = A2 (ix2 (i 0) (0 : Fin 1)) := h2
  refine (pay0_apply X0 X1 X2 p q).trans ?_
  show (∑ k : Fin 128, X0 (ix2 p k) * X1 (ix2 k q)) * X2 (ix2 p (0 : Fin 1))
      = (∑ k : Fin 128, A0 (ix2 (i 0) k) * X1 (ix2 k (i 1))) * A2 (ix2 (i 0) (0 : Fin 1))
  rw [hq, h2']
  exact congrArg (· * _) (Finset.sum_congr rfl fun k _ => by rw [h0' k])

section Region0

variable (V : (c : Dev nD) → (b : Ref sig .tc) → Buf (Elt Ideal) ((c : Thread nD τ).loc b))

/-- The printed index maps over the grid: the row-blocked windows sit at block row `t`, the weights at the origin. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- What point `t` writes back is block `t` of the specification of the arrays the region finds. -/
theorem flushed0_eq (c : Dev nD) (t : Fin cfg0.N) :
    (dat0 V c).flushed 3 t = ((cfg0.win 3).blk t).view.read (Elt Ideal)
      (Cert.Proof.Gcn.scaledProduct128 (V c main_arg0) (V c main_arg3) (V c main_v11)) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x128) hz, View.ld_unit_zero (S := S5000x1) hz]
  obtain ⟨e00, e01, e10, e11, e20, e21, e30, e31⟩ := idx_facts0 t
  refine funext fun (j : S5000x128.Idx) => ?_
  refine point0 (iblk0 V c 0 t) (iblk0 V c 1 t) (iblk0 V c 2 t) (V c main_arg0) (V c main_arg3) (V c main_v11) j
    (((cfg0.win 3).blk t).view.emb j) (fun k => ?_) ?_ ?_ ?_
  · show V c main_arg0 (((cfg0.win 0).blk t).view.emb (ix2 (j 0) k)) = V c main_arg0 (ix2 ((((cfg0.win 3).blk t).view.emb j) 0) k)
    refine congrArg (V c main_arg0) (funext fun a => Fin.ext ?_)
    match a with
    | ⟨0, _⟩ => show win0_0.index t (0 : Fin 2) * 5000 + 1 * (j 0).val = win0_3.index t (0 : Fin 2) * 5000 + 1 * (j 0).val; omega
    | ⟨1, _⟩ => show win0_0.index t (1 : Fin 2) * 128 + 1 * k.val = k.val; omega
  · funext y
    show V c main_arg3 (((cfg0.win 1).blk t).view.emb y) = V c main_arg3 y
    refine congrArg (V c main_arg3) (funext fun a => Fin.ext ?_)
    match a with
    | ⟨0, _⟩ => show win0_1.index t (0 : Fin 2) * 128 + 1 * (y 0).val = (y 0).val; omega
    | ⟨1, _⟩ => show win0_1.index t (1 : Fin 2) * 128 + 1 * (y 1).val = (y 1).val; omega
  · show V c main_v11 (((cfg0.win 2).blk t).view.emb (ix2 (j 0) (0 : Fin 1))) = V c main_v11 (ix2 ((((cfg0.win 3).blk t).view.emb j) 0) (0 : Fin 1))
    refine congrArg (V c main_v11) (funext fun a => Fin.ext ?_)
    match a with
    | ⟨0, _⟩ => show win0_2.index t (0 : Fin 2) * 5000 + 1 * (j 0).val = win0_3.index t (0 : Fin 2) * 5000 + 1 * (j 0).val; omega
    | ⟨1, _⟩ => show win0_2.index t (1 : Fin 2) * 1 + 1 * 0 = 0; omega
  · show win0_3.index t (1 : Fin 2) * 128 + 1 * (j 1).val = (j 1).val; omega

/-- An index of the array is in point `t`'s block iff each coordinate is in the block's range on its axis. -/
theorem mem_blk0 (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v12).slice (win0_3.rect t)).set ↔ _
  rw [View.set_slice_whole, Rect.mem_set_unit]
  exact Iff.rfl

/-- The twenty blocks of 5000 rows tile the array: row `r` is in block `r / 5000`. -/
theorem cover0 (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 20 := N_0
  have ht : (i 0).val / 5000 < cfg0.N := by rw [hN]; omega
  obtain ⟨-, -, -, -, -, -, e30, e31⟩ := idx_facts0 ⟨(i 0).val / 5000, ht⟩
  refine ⟨⟨(i 0).val / 5000, ht⟩, flush0_3 _, ?_⟩
  rw [mem_blk0]
  intro a
  match a with
  | ⟨0, _⟩ =>
    show win0_3.index ⟨(i 0).val / 5000, ht⟩ (0 : Fin 2) * 5000 ≤ (i 0).val ∧ (i 0).val < win0_3.index ⟨(i 0).val / 5000, ht⟩ (0 : Fin 2) * 5000 + 5000
    rw [e30]; show (i 0).val / 5000 * 5000 ≤ (i 0).val ∧ (i 0).val < (i 0).val / 5000 * 5000 + 5000; omega
  | ⟨1, _⟩ =>
    show win0_3.index ⟨(i 0).val / 5000, ht⟩ (1 : Fin 2) * 128 ≤ (i 1).val ∧ (i 1).val < win0_3.index ⟨(i 0).val / 5000, ht⟩ (1 : Fin 2) * 128 + 128
    rw [e31]; omega

/-- The output array after the region: the specification of the arrays the region finds. -/
theorem final0 (c : Dev nD) : (dat0 V c).arrAt 3 cfg0.N
    = Cert.Proof.Gcn.scaledProduct128 (V c main_arg0) (V c main_arg3) (V c main_v11) :=
  (dat0 V c).arrAt_eq_of_cover 3 _ (fun t _ => flushed0_eq V c t) (cover0)

end Region0

end Cert.KernelIdeal.Hand

end
-- ==== Proof.PreAgg64.lean ====
/-
  The second layer's dense half before the neighbourhood sum, as the kernel computes it on one block of 5000 rows:
  the block's rows of hidden features times the whole [128, 64] weight matrix, each row scaled by its node's factor;
  and the whole array that the twenty blocks make up.
-/
import proofs.«174666_j8392366096425_1_alg».proof.Proof.Gen.KernelIdeal.Frame
import proofs.«174666_j8392366096425_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.TcCoe Idealize.ShloMosaic.ValueIdx Idealize.SL.Sem
open Idealize.ShloMosaic.Pipeline (Dat)

namespace Cert.KernelIdeal.Hand

open Cert.KernelIdeal Cert.KernelIdeal.Gen

theorem hz2 : (![0, 0] : Fin 2 → Nat) = fun _ => 0 := funext fun a => by fin_cases a <;> rfl

/-- The block product's left operand is read at the output's row and the contraction index. -/
theorem blockProduct64_lhs0 (i : S5000x64.Idx) (c : dot_S5000x128_S128x64_S5000x64_1_0_0_1_n_n.contr.Idx) : (dot_S5000x128_S128x64_S5000x64_1_0_0_1_n_n.lhsIdx i c 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem blockProduct64_lhs1 (i : S5000x64.Idx) (c : dot_S5000x128_S128x64_S5000x64_1_0_0_1_n_n.contr.Idx) : (dot_S5000x128_S128x64_S5000x64_1_0_0_1_n_n.lhsIdx i c 1).val = (c ⟨0, by decide⟩).val :=
  dot_S5000x128_S128x64_S5000x64_1_0_0_1_n_n.lhsIdx_val_of_single rfl i c
/-- The right operand is read at the contraction index and the output's column. -/
theorem blockProduct64_rhs0 (i : S5000x64.Idx) (c : dot_S5000x128_S128x64_S5000x64_1_0_0_1_n_n.contr.Idx) : (dot_S5000x128_S128x64_S5000x64_1_0_0_1_n_n.rhsIdx i c 0).val = (c ⟨0, by decide⟩).val :=
  dot_S5000x128_S128x64_S5000x64_1_0_0_1_n_n.rhsIdx_val_of_single rfl i c
theorem blockProduct64_rhs1 (i : S5000x64.Idx) (c : dot_S5000x128_S128x64_S5000x64_1_0_0_1_n_n.contr.Idx) : (dot_S5000x128_S128x64_S5000x64_1_0_0_1_n_n.rhsIdx i c 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- One entry of the block product into a zero accumulator: the sum over the 128 input features of the row's entry
    times the column's. -/
theorem blockProduct64_apply (l : FVec Ideal S5000x128 .bf16) (r : FVec Ideal S128x64 .bf16) (p : Fin 5000) (q : Fin 64) :
    FloatOps.matmul dot_S5000x128_S128x64_S5000x64_1_0_0_1_n_n none l r (constant (F := Ideal) S5000x64 .f32 0x00000000#32) (ix2 p q)
      = ∑ k : Fin 128, l (ix2 p k) * r (ix2 k q) := by
  refine (Ideal.matmul_constant_zero_apply dot_S5000x128_S128x64_S5000x64_1_0_0_1_n_n none l r (ix2 p q)).trans ?_
  rw [← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx (ix2 p q) ((ValueIdx.contrEquiv1 dot_S5000x128_S128x64_S5000x64_1_0_0_1_n_n 128 rfl rfl).symm k) = ix2 p k := funext fun a => Fin.ext (by
    match a with
    | ⟨0, _⟩ => exact blockProduct64_lhs0 _ _
    | ⟨1, _⟩ => exact (blockProduct64_lhs1 _ _).trans hk)
  have er : dot_S5000x128_S128x64_S5000x64_1_0_0_1_n_n.rhsIdx (ix2 p q) ((ValueIdx.contrEquiv1 dot_S5000x128_S128x64_S5000x64_1_0_0_1_n_n 128 rfl rfl).symm k) = ix2 k q := funext fun a => Fin.ext (by
    match a with
    | ⟨0, _⟩ => exact (blockProduct64_rhs0 _ _).trans hk
    | ⟨1, _⟩ => exact blockProduct64_rhs1 _ _)
  rw [el, er]

/-- The body's stored value at row `p`, column `q` of the block: the input block's row times the weights' column,
    scaled by the row's factor. The narrowings of the operands and the cast of the block to its own shape are the
    identity on the extended reals. -/
theorem pay2_apply (x0 : Vec Ideal S5000x128 .f32) (x1 : Vec Ideal S128x64 .f32) (x2 : Vec Ideal S5000x1 .f32) (p : Fin 5000) (q : Fin 64) :
    k2_pay1 x0 x1 x2 (ix2 p q) = (∑ k : Fin 128, x0 (ix2 p k) * x1 (ix2 k q)) * x2 (ix2 p (0 : Fin 1)) := by
  unfold k2_pay1
  show FloatOps.matmul dot_S5000x128_S128x64_S5000x64_1_0_0_1_n_n none (truncf (F := Ideal) .bf16 (shapeCast S5000x128 x0 shapeCasts_S5000x128_S5000x128) bitsLt_bf16_f32) (truncf (F := Ideal) .bf16 x1 bitsLt_bf16_f32) (constant (F := Ideal) S5000x64 .f32 0x00000000#32) (ix2 p q)
      * broadcastTo S5000x64 (shapeCast S5000x1 x2 shapeCasts_S5000x1_S5000x1) broadcasts_S5000x1_S5000x64 (ix2 p q) = _
  refine congrArg₂ (· * ·) ((blockProduct64_apply _ _ p q).trans ?_) ?_
  · exact Finset.sum_congr rfl fun k _ => congrArg (· * _) (congrFun (shapeCast_self x0 shapeCasts_S5000x128_S5000x128) (ix2 p k))
  · refine (broadcastTo_apply _ broadcasts_S5000x1_S5000x64 (ix2 p q) (ix2 p (0 : Fin 1)) fun a => ?_).trans (congrFun (shapeCast_self x2 shapeCasts_S5000x1_S5000x1) _)
    match a with
    | ⟨0, _⟩ => show p.val = if (5000 : Nat) = 1 then 0 else p.val; rw [if_neg (by decide)]
    | ⟨1, _⟩ => show 0 = if (1 : Nat) = 1 then 0 else q.val; rw [if_pos rfl]

/-- One stored entry against the whole arrays: when the block's row is the array's row `i 0`, the weights are the
    whole matrix and the factor is that row's, the entry is the specification's at `i`. -/
theorem point2 (X0 : Vec Ideal S5000x128 .f32) (X1 : Vec Ideal S128x64 .f32) (X2 : Vec Ideal S5000x1 .f32)
    (A0 : FVec Ideal S100000x128 .f32) (A1 : FVec Ideal S128x64 .f32) (A2 : FVec Ideal S100000x1 .f32)
    (y : S5000x64.Idx) (i : S100000x64.Idx)
    (h0 : ∀ k : Fin 128, X0 (ix2 (y 0) k) = A0 (ix2 (i 0) k)) (h1 : X1 = A1)
    (h2 : X2 (ix2 (y 0) (0 : Fin 1)) = A2 (ix2 (i 0) (0 : Fin 1))) (hi1 : (i 1).val = (y 1).val) :
    k2_pay1 X0 X1 X2 y = Cert.Proof.Gcn.scaledProduct64 A0 A1 A2 i := by
  subst h1
  obtain ⟨p, q, rfl⟩ : ∃ (p : Fin 5000) (q : Fin 64), y = ix2 p q := ⟨y 0, y 1, eq_ix2 y⟩
  have hq : i 1 = q := Fin.ext hi1
  have h0' : ∀ k : Fin 128, X0 (ix2 p k) = A0 (ix2 (i 0) k) := h0
  have h2' : X2 (ix2 p (0 : Fin 1)) = A2 (ix2 (i 0) (0 : Fin 1)) := h2
  refine (pay2_apply X0 X1 X2 p q).trans ?_
  show (∑ k : Fin 128, X0 (ix2 p k) * X1 (ix2 k q)) * X2 (ix2 p (0 : Fin 1))
      = (∑ k : Fin 128, A0 (ix2 (i 0) k) * X1 (ix2 k (i 1))) * A2 (ix2 (i 0) (0 : Fin 1))
  rw [hq, h2']
  exact congrArg (· * _) (Finset.sum_congr rfl fun k _ => by rw [h0' k])

section Region2

variable (V : (c : Dev nD) → (b : Ref sig .tc) → Buf (Elt Ideal) ((c : Thread nD τ).loc b))

/-- The printed index maps over the grid: the row-blocked windows sit at block row `t`, the weights at the origin. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

/-- What point `t` writes back is block `t` of the specification of the arrays the region finds. -/
theorem flushed2_eq (c : Dev nD) (t : Fin cfg2.N) :
    (dat2 V c).flushed 3 t = ((cfg2.win 3).blk t).view.read (Elt Ideal)
      (Cert.Proof.Gcn.scaledProduct64 (V c main_v23) (V c main_arg5) (V c main_v24)) := by
  show (cfg2.win 3).cut (grid2.coords t) ((dat2 V c).after 3 t) = _
  rw [after2_3]
  unfold out2_3
  rw [View.canon_unit_zero hz2]
  simp only [View.ld_unit_zero (S := S5000x128) hz2, View.ld_unit_zero (S := S128x64) hz2, View.ld_unit_zero (S := S5000x1) hz2]
  obtain ⟨e00, e01, e10, e11, e20, e21, e30, e31⟩ := idx_facts2 t
  refine funext fun (j : S5000x64.Idx) => ?_
  refine point2 (iblk2 V c 0 t) (iblk2 V c 1 t) (iblk2 V c 2 t) (V c main_v23) (V c main_arg5) (V c main_v24) j
    (((cfg2.win 3).blk t).view.emb j) (fun k => ?_) ?_ ?_ ?_
  · show V c main_v23 (((cfg2.win 0).blk t).view.emb (ix2 (j 0) k)) = V c main_v23 (ix2 ((((cfg2.win 3).blk t).view.emb j) 0) k)
    refine congrArg (V c main_v23) (funext fun a => Fin.ext ?_)
    match a with
    | ⟨0, _⟩ => show win2_0.index t (0 : Fin 2) * 5000 + 1 * (j 0).val = win2_3.index t (0 : Fin 2) * 5000 + 1 * (j 0).val; omega
    | ⟨1, _⟩ => show win2_0.index t (1 : Fin 2) * 128 + 1 * k.val = k.val; omega
  · funext y
    show V c main_arg5 (((cfg2.win 1).blk t).view.emb y) = V c main_arg5 y
    refine congrArg (V c main_arg5) (funext fun a => Fin.ext ?_)
    match a with
    | ⟨0, _⟩ => show win2_1.index t (0 : Fin 2) * 128 + 1 * (y 0).val = (y 0).val; omega
    | ⟨1, _⟩ => show win2_1.index t (1 : Fin 2) * 64 + 1 * (y 1).val = (y 1).val; omega
  · show V c main_v24 (((cfg2.win 2).blk t).view.emb (ix2 (j 0) (0 : Fin 1))) = V c main_v24 (ix2 ((((cfg2.win 3).blk t).view.emb j) 0) (0 : Fin 1))
    refine congrArg (V c main_v24) (funext fun a => Fin.ext ?_)
    match a with
    | ⟨0, _⟩ => show win2_2.index t (0 : Fin 2) * 5000 + 1 * (j 0).val = win2_3.index t (0 : Fin 2) * 5000 + 1 * (j 0).val; omega
    | ⟨1, _⟩ => show win2_2.index t (1 : Fin 2) * 1 + 1 * 0 = 0; omega
  · show win2_3.index t (1 : Fin 2) * 64 + 1 * (j 1).val = (j 1).val; omega

/-- An index of the array is in point `t`'s block iff each coordinate is in the block's range on its axis. -/
theorem mem_blk2 (t : Fin cfg2.N) (i : S100000x64.Idx) :
    i ∈ ((cfg2.win 3).blk t).view.set ↔ ∀ a : Fin 2, win2_3.index t a * S5000x64.size a ≤ (i a).val ∧ (i a).val < win2_3.index t a * S5000x64.size a + S5000x64.size a := by
  show i ∈ ((View.whole main_v25).slice (win2_3.rect t)).set ↔ _
  rw [View.set_slice_whole, Rect.mem_set_unit]
  exact Iff.rfl

/-- The twenty blocks of 5000 rows tile the array: row `r` is in block `r / 5000`. -/
theorem cover2 (i : S100000x64.Idx) :
    ∃ t : Fin cfg2.N, (cfg2.win 3).flush t = true ∧ i ∈ ((cfg2.win 3).blk t).view.set := by
  have hi0 : (i 0).val < 100000 := (i 0).isLt
  have hi1 : (i 1).val < 64 := (i 1).isLt
  have hN : cfg2.N = 20 := N_2
  have ht : (i 0).val / 5000 < cfg2.N := by rw [hN]; omega
  obtain ⟨-, -, -, -, -, -, e30, e31⟩ := idx_facts2 ⟨(i 0).val / 5000, ht⟩
  refine ⟨⟨(i 0).val / 5000, ht⟩, flush2_3 _, ?_⟩
  rw [mem_blk2]
  intro a
  match a with
  | ⟨0, _⟩ =>
    show win2_3.index ⟨(i 0).val / 5000, ht⟩ (0 : Fin 2) * 5000 ≤ (i 0).val ∧ (i 0).val < win2_3.index ⟨(i 0).val / 5000, ht⟩ (0 : Fin 2) * 5000 + 5000
    rw [e30]; show (i 0).val / 5000 * 5000 ≤ (i 0).val ∧ (i 0).val < (i 0).val / 5000 * 5000 + 5000; omega
  | ⟨1, _⟩ =>
    show win2_3.index ⟨(i 0).val / 5000, ht⟩ (1 : Fin 2) * 64 ≤ (i 1).val ∧ (i 1).val < win2_3.index ⟨(i 0).val / 5000, ht⟩ (1 : Fin 2) * 64 + 64
    rw [e31]; omega

/-- The output array after the region: the specification of the arrays the region finds. -/
theorem final2 (c : Dev nD) : (dat2 V c).arrAt 3 cfg2.N
    = Cert.Proof.Gcn.scaledProduct64 (V c main_v23) (V c main_arg5) (V c main_v24) :=
  (dat2 V c).arrAt_eq_of_cover 3 _ (fun t _ => flushed2_eq V c t) (cover2)

end Region2

end Cert.KernelIdeal.Hand

end
-- ==== Proof.PostAgg128.lean ====
/-
  The first layer's dense half after the neighbourhood sum, as the kernel computes it on one block of 5000 rows: each
  aggregated row scaled by its node's target-side factor, the bias row added, the result clamped at zero from below;
  and the whole array that the twenty blocks make up.
-/
import proofs.«174666_j8392366096425_1_alg».proof.Proof.Gen.KernelIdeal.Frame
import proofs.«174666_j8392366096425_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.TcCoe Idealize.ShloMosaic.ValueIdx Idealize.SL.Sem
open Idealize.ShloMosaic.Pipeline (Dat)

namespace Cert.KernelIdeal.Hand

open Cert.KernelIdeal Cert.KernelIdeal.Gen

theorem hz1 : (![0, 0] : Fin 2 → Nat) = fun _ => 0 := funext fun a => by fin_cases a <;> rfl

/-- The body's stored value at row `p`, column `q` of the block: the aggregated entry times the row's factor plus the
    column's bias, clamped at zero from below. The casts of each block to its own shape are the identity. -/
theorem pay1_apply (x0 : Vec Ideal S5000x128 .f32) (x1 : Vec Ideal S5000x1 .f32) (x2 : Vec Ideal S1x128 .f32) (p : Fin 5000) (q : Fin 128) :
    k1_pay1 x0 x1 x2 (ix2 p q) = max (x0 (ix2 p q) * x1 (ix2 p (0 : Fin 1)) + x2 (ix2 (0 : Fin 1) q)) (Ideal.ofBits .f32 0x00000000#32) := by
  unfold k1_pay1
  show max (shapeCast S5000x128 x0 shapeCasts_S5000x128_S5000x128 (ix2 p q)
        * broadcastTo S5000x128 (shapeCast S5000x1 x1 shapeCasts_S5000x1_S5000x1) broadcasts_S5000x1_S5000x128 (ix2 p q)
      + broadcastTo S5000x128 (shapeCast S1x128 x2 shapeCasts_S1x128_S1x128) broadcasts_S1x128_S5000x128 (ix2 p q)) (Ideal.ofBits .f32 0x00000000#32) = _
  refine congrArg (max · _) (congrArg₂ (· + ·) (congrArg₂ (· * ·) (congrFun (shapeCast_self x0 shapeCasts_S5000x128_S5000x128) _) ?_) ?_)
  · refine (broadcastTo_apply _ broadcasts_S5000x1_S5000x128 (ix2 p q) (ix2 p (0 : Fin 1)) fun a => ?_).trans (congrFun (shapeCast_self x1 shapeCasts_S5000x1_S5000x1) _)
    match a with
    | ⟨0, _⟩ => show p.val = if (5000 : Nat) = 1 then 0 else p.val; rw [if_neg (by decide)]
    | ⟨1, _⟩ => show 0 = if (1 : Nat) = 1 then 0 else q.val; rw [if_pos rfl]
  · exact (broadcastTo_1b_ab_apply _ broadcasts_S1x128_S5000x128 p q).trans (congrFun (shapeCast_self x2 shapeCasts_S1x128_S1x128) _)

/-- One stored entry against the whole arrays: when the block's entry is the array's at `i`, the factor is row `i 0`'s
    and the bias row is the whole one, the entry is the specification's at `i`. -/
theorem point1 (X0 : Vec Ideal S5000x128 .f32) (X1 : Vec Ideal S5000x1 .f32) (X2 : Vec Ideal S1x128 .f32)
    (A0 : FVec Ideal S100000x128 .f32) (A1 : FVec Ideal S100000x1 .f32) (A2 : FVec Ideal S1x128 .f32)
    (y : S5000x128.Idx) (i : S100000x128.Idx)
    (h0 : X0 y = A0 i) (h1 : X1 (ix2 (y 0) (0 : Fin 1)) = A1 (ix2 (i 0) (0 : Fin 1))) (h2 : X2 = A2) (hi1 : (i 1).val = (y 1).val) :
    k1_pay1 X0 X1 X2 y = Cert.Proof.Gcn.scaledBiasedClamped128 A0 A1 A2 i := by
  subst h2
  obtain ⟨p, q, rfl⟩ : ∃ (p : Fin 5000) (q : Fin 128), y = ix2 p q := ⟨y 0, y 1, eq_ix2 y⟩
  have hq : i 1 = q := Fin.ext hi1
  have h1' : X1 (ix2 p (0 : Fin 1)) = A1 (ix2 (i 0) (0 : Fin 1)) := h1
  refine (pay1_apply X0 X1 X2 p q).trans ?_
  show max (X0 (ix2 p q) * X1 (ix2 p (0 : Fin 1)) + X2 (ix2 (0 : Fin 1) q)) (Ideal.ofBits .f32 0x00000000#32)
      = max (A0 i * A1 (ix2 (i 0) (0 : Fin 1)) + X2 (ix2 (0 : Fin 1) (i 1))) (Ideal.ofBits .f32 0x00000000#32)
  rw [hq, h1', h0]

section Region1

variable (V : (c : Dev nD) → (b : Ref sig .tc) → Buf (Elt Ideal) ((c : Thread nD τ).loc b))

/-- The printed index maps over the grid: the row-blocked windows sit at block row `t`, the bias row at the origin. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point `t` writes back is block `t` of the specification of the arrays the region finds. -/
theorem flushed1_eq (c : Dev nD) (t : Fin cfg1.N) :
    (dat1 V c).flushed 3 t = ((cfg1.win 3).blk t).view.read (Elt Ideal)
      (Cert.Proof.Gcn.scaledBiasedClamped128 (V c main_v22) (V c main_call2_v0) (V c main_call2_v1)) := by
  show (cfg1.win 3).cut (grid1.coords t) ((dat1 V c).after 3 t) = _
  rw [after1_3]
  unfold out1_3
  rw [View.canon_unit_zero hz1]
  simp only [View.ld_unit_zero (S := S5000x128) hz1, View.ld_unit_zero (S := S5000x1) hz1, View.ld_unit_zero (S := S1x128) hz1]
  obtain ⟨e00, e01, e10, e11, e20, e21, e30, e31⟩ := idx_facts1 t
  refine funext fun (j : S5000x128.Idx) => ?_
  refine point1 (iblk1 V c 0 t) (iblk1 V c 1 t) (iblk1 V c 2 t) (V c main_v22) (V c main_call2_v0) (V c main_call2_v1) j
    (((cfg1.win 3).blk t).view.emb j) ?_ ?_ ?_ ?_
  · show V c main_v22 (((cfg1.win 0).blk t).view.emb j) = V c main_v22 (((cfg1.win 3).blk t).view.emb j)
    refine congrArg (V c main_v22) (funext fun a => Fin.ext ?_)
    match a with
    | ⟨0, _⟩ => show win1_0.index t (0 : Fin 2) * 5000 + 1 * (j 0).val = win1_3.index t (0 : Fin 2) * 5000 + 1 * (j 0).val; omega
    | ⟨1, _⟩ => show win1_0.index t (1 : Fin 2) * 128 + 1 * (j 1).val = win1_3.index t (1 : Fin 2) * 128 + 1 * (j 1).val; omega
  · show V c main_call2_v0 (((cfg1.win 1).blk t).view.emb (ix2 (j 0) (0 : Fin 1))) = V c main_call2_v0 (ix2 ((((cfg1.win 3).blk t).view.emb j) 0) (0 : Fin 1))
    refine congrArg (V c main_call2_v0) (funext fun a => Fin.ext ?_)
    match a with
    | ⟨0, _⟩ => show win1_1.index t (0 : Fin 2) * 5000 + 1 * (j 0).val = win1_3.index t (0 : Fin 2) * 5000 + 1 * (j 0).val; omega
    | ⟨1, _⟩ => show win1_1.index t (1 : Fin 2) * 1 + 1 * 0 = 0; omega
  · funext y
    show V c main_call2_v1 (((cfg1.win 2).blk t).view.emb y) = V c main_call2_v1 y
    refine congrArg (V c main_call2_v1) (funext fun a => Fin.ext ?_)
    match a with
    | ⟨0, _⟩ => show win1_2.index t (0 : Fin 2) * 1 + 1 * (y 0).val = (y 0).val; omega
    | ⟨1, _⟩ => show win1_2.index t (1 : Fin 2) * 128 + 1 * (y 1).val = (y 1).val; omega
  · show win1_3.index t (1 : Fin 2) * 128 + 1 * (j 1).val = (j 1).val; omega

/-- An index of the array is in point `t`'s block iff each coordinate is in the block's range on its axis. -/
theorem mem_blk1 (t : Fin cfg1.N) (i : S100000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v23).slice (win1_3.rect t)).set ↔ _
  rw [View.set_slice_whole, Rect.mem_set_unit]
  exact Iff.rfl

/-- The twenty blocks of 5000 rows tile the array: row `r` is in block `r / 5000`. -/
theorem cover1 (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  have hN : cfg1.N = 20 := N_1
  have ht : (i 0).val / 5000 < cfg1.N := by rw [hN]; omega
  obtain ⟨-, -, -, -, -, -, e30, e31⟩ := idx_facts1 ⟨(i 0).val / 5000, ht⟩
  refine ⟨⟨(i 0).val / 5000, ht⟩, flush1_3 _, ?_⟩
  rw [mem_blk1]
  intro a
  match a with
  | ⟨0, _⟩ =>
    show win1_3.index ⟨(i 0).val / 5000, ht⟩ (0 : Fin 2) * 5000 ≤ (i 0).val ∧ (i 0).val < win1_3.index ⟨(i 0).val / 5000, ht⟩ (0 : Fin 2) * 5000 + 5000
    rw [e30]; show (i 0).val / 5000 * 5000 ≤ (i 0).val ∧ (i 0).val < (i 0).val / 5000 * 5000 + 5000; omega
  | ⟨1, _⟩ =>
    show win1_3.index ⟨(i 0).val / 5000, ht⟩ (1 : Fin 2) * 128 ≤ (i 1).val ∧ (i 1).val < win1_3.index ⟨(i 0).val / 5000, ht⟩ (1 : Fin 2) * 128 + 128
    rw [e31]; omega

/-- The output array after the region: the specification of the arrays the region finds. -/
theorem final1 (c : Dev nD) : (dat1 V c).arrAt 3 cfg1.N
    = Cert.Proof.Gcn.scaledBiasedClamped128 (V c main_v22) (V c main_call2_v0) (V c main_call2_v1) :=
  (dat1 V c).arrAt_eq_of_cover 3 _ (fun t _ => flushed1_eq V c t) (cover1)

end Region1

end Cert.KernelIdeal.Hand

end
-- ==== Proof.PostAgg64.lean ====
/-
  The second layer's dense half after the neighbourhood sum, as the kernel computes it on one block of 5000 rows: each
  aggregated row scaled by its node's target-side factor, the bias row added; and the whole array that the twenty
  blocks make up.
-/
import proofs.«174666_j8392366096425_1_alg».proof.Proof.Gen.KernelIdeal.Frame
import proofs.«174666_j8392366096425_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.TcCoe Idealize.ShloMosaic.ValueIdx Idealize.SL.Sem
open Idealize.ShloMosaic.Pipeline (Dat)

namespace Cert.KernelIdeal.Hand

open Cert.KernelIdeal Cert.KernelIdeal.Gen

theorem hz3 : (![0, 0] : Fin 2 → Nat) = fun _ => 0 := funext fun a => by fin_cases a <;> rfl

/-- The body's stored value at row `p`, column `q` of the block: the aggregated entry times the row's factor plus the
    column's bias. The casts of each block to its own shape are the identity. -/
theorem pay3_apply (x0 : Vec Ideal S5000x64 .f32) (x1 : Vec Ideal S5000x1 .f32) (x2 : Vec Ideal S1x64 .f32) (p : Fin 5000) (q : Fin 64) :
    k3_pay1 x0 x1 x2 (ix2 p q) = x0 (ix2 p q) * x1 (ix2 p (0 : Fin 1)) + x2 (ix2 (0 : Fin 1) q) := by
  unfold k3_pay1
  show shapeCast S5000x64 x0 shapeCasts_S5000x64_S5000x64 (ix2 p q)
        * broadcastTo S5000x64 (shapeCast S5000x1 x1 shapeCasts_S5000x1_S5000x1) broadcasts_S5000x1_S5000x64 (ix2 p q)
      + broadcastTo S5000x64 (shapeCast S1x64 x2 shapeCasts_S1x64_S1x64) broadcasts_S1x64_S5000x64 (ix2 p q) = _
  refine (congrArg₂ (· + ·) (congrArg₂ (· * ·) (congrFun (shapeCast_self x0 shapeCasts_S5000x64_S5000x64) _) ?_) ?_)
  · refine (broadcastTo_apply _ broadcasts_S5000x1_S5000x64 (ix2 p q) (ix2 p (0 : Fin 1)) fun a => ?_).trans (congrFun (shapeCast_self x1 shapeCasts_S5000x1_S5000x1) _)
    match a with
    | ⟨0, _⟩ => show p.val = if (5000 : Nat) = 1 then 0 else p.val; rw [if_neg (by decide)]
    | ⟨1, _⟩ => show 0 = if (1 : Nat) = 1 then 0 else q.val; rw [if_pos rfl]
  · exact (broadcastTo_1b_ab_apply _ broadcasts_S1x64_S5000x64 p q).trans (congrFun (shapeCast_self x2 shapeCasts_S1x64_S1x64) _)

/-- One stored entry against the whole arrays: when the block's entry is the array's at `i`, the factor is row `i 0`'s
    and the bias row is the whole one, the entry is the specification's at `i`. -/
theorem point3 (X0 : Vec Ideal S5000x64 .f32) (X1 : Vec Ideal S5000x1 .f32) (X2 : Vec Ideal S1x64 .f32)
    (A0 : FVec Ideal S100000x64 .f32) (A1 : FVec Ideal S100000x1 .f32) (A2 : FVec Ideal S1x64 .f32)
    (y : S5000x64.Idx) (i : S100000x64.Idx)
    (h0 : X0 y = A0 i) (h1 : X1 (ix2 (y 0) (0 : Fin 1)) = A1 (ix2 (i 0) (0 : Fin 1))) (h2 : X2 = A2) (hi1 : (i 1).val = (y 1).val) :
    k3_pay1 X0 X1 X2 y = Cert.Proof.Gcn.scaledBiased64 A0 A1 A2 i := by
  subst h2
  obtain ⟨p, q, rfl⟩ : ∃ (p : Fin 5000) (q : Fin 64), y = ix2 p q := ⟨y 0, y 1, eq_ix2 y⟩
  have hq : i 1 = q := Fin.ext hi1
  have h1' : X1 (ix2 p (0 : Fin 1)) = A1 (ix2 (i 0) (0 : Fin 1)) := h1
  refine (pay3_apply X0 X1 X2 p q).trans ?_
  show X0 (ix2 p q) * X1 (ix2 p (0 : Fin 1)) + X2 (ix2 (0 : Fin 1) q)
      = A0 i * A1 (ix2 (i 0) (0 : Fin 1)) + X2 (ix2 (0 : Fin 1) (i 1))
  rw [hq, h1', h0]

section Region3

variable (V : (c : Dev nD) → (b : Ref sig .tc) → Buf (Elt Ideal) ((c : Thread nD τ).loc b))

/-- The printed index maps over the grid: the row-blocked windows sit at block row `t`, the bias row at the origin. -/
theorem idx_facts3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- What point `t` writes back is block `t` of the specification of the arrays the region finds. -/
theorem flushed3_eq (c : Dev nD) (t : Fin cfg3.N) :
    (dat3 V c).flushed 3 t = ((cfg3.win 3).blk t).view.read (Elt Ideal)
      (Cert.Proof.Gcn.scaledBiased64 (V c main_v35) (V c main_call3_v0) (V c main_call3_v1)) := by
  show (cfg3.win 3).cut (grid3.coords t) ((dat3 V c).after 3 t) = _
  rw [after3_3]
  unfold out3_3
  rw [View.canon_unit_zero hz3]
  simp only [View.ld_unit_zero (S := S5000x64) hz3, View.ld_unit_zero (S := S5000x1) hz3, View.ld_unit_zero (S := S1x64) hz3]
  obtain ⟨e00, e01, e10, e11, e20, e21, e30, e31⟩ := idx_facts3 t
  refine funext fun (j : S5000x64.Idx) => ?_
  refine point3 (iblk3 V c 0 t) (iblk3 V c 1 t) (iblk3 V c 2 t) (V c main_v35) (V c main_call3_v0) (V c main_call3_v1) j
    (((cfg3.win 3).blk t).view.emb j) ?_ ?_ ?_ ?_
  · show V c main_v35 (((cfg3.win 0).blk t).view.emb j) = V c main_v35 (((cfg3.win 3).blk t).view.emb j)
    refine congrArg (V c main_v35) (funext fun a => Fin.ext ?_)
    match a with
    | ⟨0, _⟩ => show win3_0.index t (0 : Fin 2) * 5000 + 1 * (j 0).val = win3_3.index t (0 : Fin 2) * 5000 + 1 * (j 0).val; omega
    | ⟨1, _⟩ => show win3_0.index t (1 : Fin 2) * 64 + 1 * (j 1).val = win3_3.index t (1 : Fin 2) * 64 + 1 * (j 1).val; omega
  · show V c main_call3_v0 (((cfg3.win 1).blk t).view.emb (ix2 (j 0) (0 : Fin 1))) = V c main_call3_v0 (ix2 ((((cfg3.win 3).blk t).view.emb j) 0) (0 : Fin 1))
    refine congrArg (V c main_call3_v0) (funext fun a => Fin.ext ?_)
    match a with
    | ⟨0, _⟩ => show win3_1.index t (0 : Fin 2) * 5000 + 1 * (j 0).val = win3_3.index t (0 : Fin 2) * 5000 + 1 * (j 0).val; omega
    | ⟨1, _⟩ => show win3_1.index t (1 : Fin 2) * 1 + 1 * 0 = 0; omega
  · funext y
    show V c main_call3_v1 (((cfg3.win 2).blk t).view.emb y) = V c main_call3_v1 y
    refine congrArg (V c main_call3_v1) (funext fun a => Fin.ext ?_)
    match a with
    | ⟨0, _⟩ => show win3_2.index t (0 : Fin 2) * 1 + 1 * (y 0).val = (y 0).val; omega
    | ⟨1, _⟩ => show win3_2.index t (1 : Fin 2) * 64 + 1 * (y 1).val = (y 1).val; omega
  · show win3_3.index t (1 : Fin 2) * 64 + 1 * (j 1).val = (j 1).val; omega

/-- An index of the array is in point `t`'s block iff each coordinate is in the block's range on its axis. -/
theorem mem_blk3 (t : Fin cfg3.N) (i : S100000x64.Idx) :
    i ∈ ((cfg3.win 3).blk t).view.set ↔ ∀ a : Fin 2, win3_3.index t a * S5000x64.size a ≤ (i a).val ∧ (i a).val < win3_3.index t a * S5000x64.size a + S5000x64.size a := by
  show i ∈ ((View.whole main_v36).slice (win3_3.rect t)).set ↔ _
  rw [View.set_slice_whole, Rect.mem_set_unit]
  exact Iff.rfl

/-- The twenty blocks of 5000 rows tile the array: row `r` is in block `r / 5000`. -/
theorem cover3 (i : S100000x64.Idx) :
    ∃ t : Fin cfg3.N, (cfg3.win 3).flush t = true ∧ i ∈ ((cfg3.win 3).blk t).view.set := by
  have hi0 : (i 0).val < 100000 := (i 0).isLt
  have hi1 : (i 1).val < 64 := (i 1).isLt
  have hN : cfg3.N = 20 := N_3
  have ht : (i 0).val / 5000 < cfg3.N := by rw [hN]; omega
  obtain ⟨-, -, -, -, -, -, e30, e31⟩ := idx_facts3 ⟨(i 0).val / 5000, ht⟩
  refine ⟨⟨(i 0).val / 5000, ht⟩, flush3_3 _, ?_⟩
  rw [mem_blk3]
  intro a
  match a with
  | ⟨0, _⟩ =>
    show win3_3.index ⟨(i 0).val / 5000, ht⟩ (0 : Fin 2) * 5000 ≤ (i 0).val ∧ (i 0).val < win3_3.index ⟨(i 0).val / 5000, ht⟩ (0 : Fin 2) * 5000 + 5000
    rw [e30]; show (i 0).val / 5000 * 5000 ≤ (i 0).val ∧ (i 0).val < (i 0).val / 5000 * 5000 + 5000; omega
  | ⟨1, _⟩ =>
    show win3_3.index ⟨(i 0).val / 5000, ht⟩ (1 : Fin 2) * 64 ≤ (i 1).val ∧ (i 1).val < win3_3.index ⟨(i 0).val / 5000, ht⟩ (1 : Fin 2) * 64 + 64
    rw [e31]; omega

/-- The output array after the region: the specification of the arrays the region finds. -/
theorem final3 (c : Dev nD) : (dat3 V c).arrAt 3 cfg3.N
    = Cert.Proof.Gcn.scaledBiased64 (V c main_v35) (V c main_call3_v0) (V c main_call3_v1) :=
  (dat3 V c).arrAt_eq_of_cover 3 _ (fun t _ => flushed3_eq V c t) (cover3)

end Region3

end Cert.KernelIdeal.Hand

end
-- ==== Proof.LibKeepdims.lean ====
/-
  Two layout operations read at an index, for bodies that sum with the reduced axis kept: an `[a]` vector cast to the
  column `[a, 1]`, and a `[1, 1]` array broadcast to `[a, b]`. In the style of the library's leading-unit-axis casts.
-/
import Idealize.ShloMosaic.Lib.Pipeline.Value
import Idealize.ShloMosaic.Lib.ValueIdx

noncomputable section

namespace Cert.Proof.Layout

open Idealize.ShloMosaic Idealize.ShloMosaic.ValueIdx

/-- An `[a]` array cast to the column `[a, 1]` reads, at `(i, u)`, the operand at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A `[1, 1]` array broadcast to `[a, b]` reads its one element everywhere. -/
theorem broadcastTo_11_ab_apply {α : Type} {a b : ℕ} (v : (⟨2, ![1, 1]⟩ : Shape).Idx → α) (h : (⟨2, ![1, 1]⟩ : Shape).Broadcasts ⟨2, ![a, b]⟩)
    (p : Fin a) (c : Fin b) : broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

end Cert.Proof.Layout

end
-- ==== Proof.Bridge.lean ====
/-
  The reference's dense stages are the specification. Around each neighbourhood sum the reference multiplies a whole
  matrix product by a factor column broadcast along the features, or scales an aggregated array by a factor column and
  adds a bias row broadcast along the nodes. Read at an index, each of these is the per-node formula: the product's
  entry is the sum over the 128 input features, the broadcasts read the node's factor and the feature's bias. A vector
  reshaped to a column or to a row reads the same entries as the vector broadcast into that shape.
-/
import proofs.«174666_j8392366096425_1_alg».proof.Proof.Gen.ReferenceIdeal.Read
import proofs.«174666_j8392366096425_1_alg».proof.Proof.Spec
import proofs.«174666_j8392366096425_1_alg».proof.Proof.LibKeepdims
import Idealize.ShloMosaic.Lib.ValueIdx
import Idealize.ShloMosaic.Lib.ValueLayout

noncomputable section

open scoped BigOperators
open Idealize.ShloMosaic Idealize.ShloMosaic.ValueIdx

namespace Cert.ReferenceIdeal.Bridge

open Cert.ReferenceIdeal Cert.ReferenceIdeal.Read Cert.Proof.Gcn Cert.Proof.Layout

/-- Before the first neighbourhood sum: the product with the first weights, scaled by the source-side factors. -/
theorem firstProduct (x0 : FVec Ideal S100000x128 .f32) (x1 : IVec S1600000 32) (x3 : FVec Ideal S128x128 .f32)
    (h : S100000.ShapeCasts S100000x1) :
    scaledProduct128 x0 x3 (shapeCast S100000x1 (val_main_v9 (F := Ideal) x1) h) = val_main_v14 (F := Ideal) x0 x1 x3 := by
  funext i
  have hl : ∀ k : Fin 128, lidx_main_v11 i k = ix2 (i 0) k := fun k => funext fun a => by
    match a with | ⟨0, _⟩ => rfl | ⟨1, _⟩ => rfl
  have hr : ∀ k : Fin 128, ridx_main_v11 i k = ix2 k (i 1) := fun k => funext fun a => by
    match a with | ⟨0, _⟩ => rfl | ⟨1, _⟩ => rfl
  have hi : idx_main_v12 (idx_main_v13 i) = ix1 (i 0) := funext fun a => by
    match a with | ⟨0, _⟩ => rfl
  rw [val_main_v14_apply, val_main_v11_apply, val_main_v13_apply, val_main_v12_apply, hi]
  simp only [hl, hr]
  unfold scaledProduct128
  show _ * shapeCast S100000x1 (val_main_v9 (F := Ideal) x1) h (ix2 (i 0) (0 : Fin 1)) = _ * _
  exact congrArg (_ * ·) (shapeCast_a_a1_apply (val_main_v9 (F := Ideal) x1) h (i 0) (0 : Fin 1))

/-- After the first neighbourhood sum: scaled by the target-side factors, the first bias added, clamped at zero. -/
theorem firstLayer (x0 : FVec Ideal S100000x128 .f32) (x1 x2 : IVec S1600000 32) (x3 : FVec Ideal S128x128 .f32)
    (x4 : FVec Ideal S128 .f32) (h : S100000.ShapeCasts S100000x1) (h' : S128.ShapeCasts S1x128) :
    scaledBiasedClamped128 (val_main_v24 (F := Ideal) x0 x1 x2 x3) (shapeCast S100000x1 (val_main_v10 (F := Ideal) x2) h)
      (shapeCast S1x128 x4 h') = val_main_v31 (F := Ideal) x0 x1 x2 x3 x4 := by
  funext i
  have hs : idx_main_v25 (idx_main_v26 i) = ix1 (i 0) := funext fun a => by
    match a with | ⟨0, _⟩ => rfl
  have hb : idx_main_v28 (idx_main_v29 i) = ix1 (i 1) := funext fun a => by
    match a with | ⟨0, _⟩ => rfl
  rw [val_main_v31_apply, val_main_v30_apply, val_main_v27_apply, val_main_v26_apply, val_main_v25_apply, hs,
    val_main_v29_apply, val_main_v28_apply, hb, val_main_call2_v0_apply, val_main_call2_cst_apply]
  unfold scaledBiasedClamped128
  show max (val_main_v24 (F := Ideal) x0 x1 x2 x3 i * shapeCast S100000x1 (val_main_v10 (F := Ideal) x2) h (ix2 (i 0) (0 : Fin 1))
      + shapeCast S1x128 x4 h' (ix2 (0 : Fin 1) (i 1))) (Ideal.ofBits .f32 0x00000000#32)
    = max (val_main_v24 (F := Ideal) x0 x1 x2 x3 i * val_main_v10 (F := Ideal) x2 (ix1 (i 0)) + x4 (ix1 (i 1))) (Ideal.ofBits .f32 0x00000000#32)
  exact congrArg₂ (fun a b => max (val_main_v24 (F := Ideal) x0 x1 x2 x3 i * a + b) (Ideal.ofBits .f32 0x00000000#32))
    (shapeCast_a_a1_apply (val_main_v10 (F := Ideal) x2) h (i 0) (0 : Fin 1)) (shapeCast_a_1a_apply x4 h' (0 : Fin 1) (i 1))

/-- Before the second neighbourhood sum: the product with the second weights, scaled by the source-side factors. -/
theorem secondProduct (x0 : FVec Ideal S100000x128 .f32) (x1 x2 : IVec S1600000 32) (x3 : FVec Ideal S128x128 .f32)
    (x4 : FVec Ideal S128 .f32) (x5 : FVec Ideal S128x64 .f32) (h : S100000.ShapeCasts S100000x1) :
    scaledProduct64 (val_main_v31 (F := Ideal) x0 x1 x2 x3 x4) x5 (shapeCast S100000x1 (val_main_v9 (F := Ideal) x1) h)
      = val_main_v35 (F := Ideal) x0 x1 x2 x3 x4 x5 := by
  funext i
  have hl : ∀ k : Fin 128, lidx_main_v32 i k = ix2 (i 0) k := fun k => funext fun a => by
    match a with | ⟨0, _⟩ => rfl | ⟨1, _⟩ => rfl
  have hr : ∀ k : Fin 128, ridx_main_v32 i k = ix2 k (i 1) := fun k => funext fun a => by
    match a with | ⟨0, _⟩ => rfl | ⟨1, _⟩ => rfl
  have hi : idx_main_v33 (idx_main_v34 i) = ix1 (i 0) := funext fun a => by
    match a with | ⟨0, _⟩ => rfl
  rw [val_main_v35_apply, val_main_v32_apply, val_main_v34_apply, val_main_v33_apply, hi]
  simp only [hl, hr]
  unfold scaledProduct64
  exact congrArg (_ * ·) (shapeCast_a_a1_apply (val_main_v9 (F := Ideal) x1) h (i 0) (0 : Fin 1))

/-- After the second neighbourhood sum: scaled by the target-side factors, the second bias added. -/
theorem secondLayer (x0 : FVec Ideal S100000x128 .f32) (x1 x2 : IVec S1600000 32) (x3 : FVec Ideal S128x128 .f32)
    (x4 : FVec Ideal S128 .f32) (x5 : FVec Ideal S128x64 .f32) (x6 : FVec Ideal S64 .f32)
    (h : S100000.ShapeCasts S100000x1) (h' : S64.ShapeCasts S1x64) :
    scaledBiased64 (val_main_v45 (F := Ideal) x0 x1 x2 x3 x4 x5) (shapeCast S100000x1 (val_main_v10 (F := Ideal) x2) h)
      (shapeCast S1x64 x6 h') = val_main_v51 (F := Ideal) x0 x1 x2 x3 x4 x5 x6 := by
  funext i
  have hs : idx_main_v46 (idx_main_v47 i) = ix1 (i 0) := funext fun a => by
    match a with | ⟨0, _⟩ => rfl
  have hb : idx_main_v49 (idx_main_v50 i) = ix1 (i 1) := funext fun a => by
    match a with | ⟨0, _⟩ => rfl
  rw [val_main_v51_apply, val_main_v48_apply, val_main_v47_apply, val_main_v46_apply, hs, val_main_v50_apply, val_main_v49_apply, hb]
  unfold scaledBiased64
  show val_main_v45 (F := Ideal) x0 x1 x2 x3 x4 x5 i * shapeCast S100000x1 (val_main_v10 (F := Ideal) x2) h (ix2 (i 0) (0 : Fin 1))
      + shapeCast S1x64 x6 h' (ix2 (0 : Fin 1) (i 1))
    = val_main_v45 (F := Ideal) x0 x1 x2 x3 x4 x5 i * val_main_v10 (F := Ideal) x2 (ix1 (i 0)) + x6 (ix1 (i 1))
  exact congrArg₂ (fun a b => val_main_v45 (F := Ideal) x0 x1 x2 x3 x4 x5 i * a + b)
    (shapeCast_a_a1_apply (val_main_v10 (F := Ideal) x2) h (i 0) (0 : Fin 1)) (shapeCast_a_1a_apply x6 h' (0 : Fin 1) (i 1))

end Cert.ReferenceIdeal.Bridge

end
-- ==== Proof.HostOps.lean ====
/-
  What each stretch of host operations leaves in the buffers the dense stages read, from any contents `V` of the
  buffers before it. The program's host side counts each node's edges (a scatter-add of ones along the edge list),
  clamps the counts at one from below and takes inverse square roots; reshapes a factor vector to a column and a bias
  vector to a row; and, between the two dense halves of a layer, gathers the rows at the edges' sources (an index
  below zero wraps once around the node count) and scatter-adds them into the edges' targets. Every other buffer a
  stretch does not write keeps its contents.
-/
import proofs.«174666_j8392366096425_1_alg».proof.Proof.Gen.KernelIdeal.Frame
import Idealize.ShloMosaic.Lib.StableHlo.Run
import Idealize.ShloMosaic.PureOps.Ideal

set_option maxRecDepth 16384

noncomputable section

open Idealize.ShloMosaic Idealize.ShloMosaic.TcCoe Idealize.SL.Sem Idealize.ShloMosaic.StableHlo

namespace Cert.KernelIdeal.Hand

open Cert.KernelIdeal Cert.KernelIdeal.Gen

variable (V : Valuation τ sig (Elt Ideal))

/-! ## The two degree counts and their inverse square roots -/

/-- The number of edges leaving each node: ones scatter-added along the sources. -/
theorem count_src : @Eq (FVec Ideal S100000 .f32) (StableHlo.after hostOps0 V (Proc.devRef .tc main_v3))
    (Host.scatterAdd scatter_S100000_S1600000x1_S1600000_n_0_0_1
        (broadcastInDim S100000 ![] bcast_S_S100000 (constant (F := Ideal) S_ .f32 0x00000000#32))
        (broadcastInDim S1600000x1 ![0] bcast_S1600000_S1600000x1_0 (V (Proc.devRef .tc main_arg1) : IVec S1600000 32))
        (broadcastInDim S1600000 ![] bcast_S_S1600000 (constant (F := Ideal) S_ .f32 0x3F800000#32))) := by
  after_results_simp <;> rfl
/-- The clamp's lower bound, one. -/
theorem one_src : @Eq (FVec Ideal S_ .f32) (StableHlo.after hostOps0 V (Proc.devRef .tc main_cst_1))
    (constant (F := Ideal) S_ .f32 0x3F800000#32) := by
  after_results_simp <;> rfl
/-- One per edge. -/
theorem ones : @Eq (FVec Ideal S1600000 .f32) (StableHlo.after hostOps0 V (Proc.devRef .tc main_v0))
    (broadcastInDim S1600000 ![] bcast_S_S1600000 (constant (F := Ideal) S_ .f32 0x3F800000#32)) := by
  after_results_simp <;> rfl
theorem keep0_arg0 : StableHlo.after hostOps0 V (Proc.devRef .tc main_arg0) = V (Proc.devRef .tc main_arg0) := by after_results_simp
theorem keep0_arg1 : StableHlo.after hostOps0 V (Proc.devRef .tc main_arg1) = V (Proc.devRef .tc main_arg1) := by after_results_simp
theorem keep0_arg2 : StableHlo.after hostOps0 V (Proc.devRef .tc main_arg2) = V (Proc.devRef .tc main_arg2) := by after_results_simp
theorem keep0_arg3 : StableHlo.after hostOps0 V (Proc.devRef .tc main_arg3) = V (Proc.devRef .tc main_arg3) := by after_results_simp
theorem keep0_arg4 : StableHlo.after hostOps0 V (Proc.devRef .tc main_arg4) = V (Proc.devRef .tc main_arg4) := by after_results_simp
theorem keep0_arg5 : StableHlo.after hostOps0 V (Proc.devRef .tc main_arg5) = V (Proc.devRef .tc main_arg5) := by after_results_simp
theorem keep0_arg6 : StableHlo.after hostOps0 V (Proc.devRef .tc main_arg6) = V (Proc.devRef .tc main_arg6) := by after_results_simp
/-- The source-side count clamped at one from below. -/
theorem clamp_src : @Eq (FVec Ideal S100000 .f32) (StableHlo.after hostOps0_1 V (Proc.devRef .tc main_v4))
    (maximumf (broadcastInDim S100000 ![] bcast_S_S100000 (id (V (Proc.devRef .tc main_cst_1) : FVec Ideal S_ .f32))) (V (Proc.devRef .tc main_v3) : FVec Ideal S100000 .f32)) := by
  after_results_simp <;> rfl
theorem keep01_arg0 : StableHlo.after hostOps0_1 V (Proc.devRef .tc main_arg0) = V (Proc.devRef .tc main_arg0) := by after_results_simp
theorem keep01_arg1 : StableHlo.after hostOps0_1 V (Proc.devRef .tc main_arg1) = V (Proc.devRef .tc main_arg1) := by after_results_simp
theorem keep01_arg2 : StableHlo.after hostOps0_1 V (Proc.devRef .tc main_arg2) = V (Proc.devRef .tc main_arg2) := by after_results_simp
theorem keep01_arg3 : StableHlo.after hostOps0_1 V (Proc.devRef .tc main_arg3) = V (Proc.devRef .tc main_arg3) := by after_results_simp
theorem keep01_arg4 : StableHlo.after hostOps0_1 V (Proc.devRef .tc main_arg4) = V (Proc.devRef .tc main_arg4) := by after_results_simp
theorem keep01_arg5 : StableHlo.after hostOps0_1 V (Proc.devRef .tc main_arg5) = V (Proc.devRef .tc main_arg5) := by after_results_simp
theorem keep01_arg6 : StableHlo.after hostOps0_1 V (Proc.devRef .tc main_arg6) = V (Proc.devRef .tc main_arg6) := by after_results_simp
theorem keep01_v0 : StableHlo.after hostOps0_1 V (Proc.devRef .tc main_v0) = V (Proc.devRef .tc main_v0) := by after_results_simp
/-- The number of edges entering each node: ones scatter-added along the targets. -/
theorem count_dst : @Eq (FVec Ideal S100000 .f32) (StableHlo.after hostOps0_2 V (Proc.devRef .tc main_v7))
    (Host.scatterAdd scatter_S100000_S1600000x1_S1600000_n_0_0_1
        (broadcastInDim S100000 ![] bcast_S_S100000 (constant (F := Ideal) S_ .f32 0x00000000#32))
        (broadcastInDim S1600000x1 ![0] bcast_S1600000_S1600000x1_0 (V (Proc.devRef .tc main_arg2) : IVec S1600000 32))
        (V (Proc.devRef .tc main_v0) : FVec Ideal S1600000 .f32)) := by
  after_results_simp <;> rfl
/-- The clamp's lower bound, one. -/
theorem one_dst : @Eq (FVec Ideal S_ .f32) (StableHlo.after hostOps0_2 V (Proc.devRef .tc main_cst_3))
    (constant (F := Ideal) S_ .f32 0x3F800000#32) := by
  after_results_simp <;> rfl
theorem keep02_arg0 : StableHlo.after hostOps0_2 V (Proc.devRef .tc main_arg0) = V (Proc.devRef .tc main_arg0) := by after_results_simp
theorem keep02_arg1 : StableHlo.after hostOps0_2 V (Proc.devRef .tc main_arg1) = V (Proc.devRef .tc main_arg1) := by after_results_simp
theorem keep02_arg2 : StableHlo.after hostOps0_2 V (Proc.devRef .tc main_arg2) = V (Proc.devRef .tc main_arg2) := by after_results_simp
theorem keep02_arg3 : StableHlo.after hostOps0_2 V (Proc.devRef .tc main_arg3) = V (Proc.devRef .tc main_arg3) := by after_results_simp
theorem keep02_arg4 : StableHlo.after hostOps0_2 V (Proc.devRef .tc main_arg4) = V (Proc.devRef .tc main_arg4) := by after_results_simp
theorem keep02_arg5 : StableHlo.after hostOps0_2 V (Proc.devRef .tc main_arg5) = V (Proc.devRef .tc main_arg5) := by after_results_simp
theorem keep02_arg6 : StableHlo.after hostOps0_2 V (Proc.devRef .tc main_arg6) = V (Proc.devRef .tc main_arg6) := by after_results_simp
theorem keep02_v4 : StableHlo.after hostOps0_2 V (Proc.devRef .tc main_v4) = V (Proc.devRef .tc main_v4) := by after_results_simp
/-- The target-side count clamped at one from below. -/
theorem clamp_dst : @Eq (FVec Ideal S100000 .f32) (StableHlo.after hostOps0_3 V (Proc.devRef .tc main_v8))
    (maximumf (broadcastInDim S100000 ![] bcast_S_S100000 (id (V (Proc.devRef .tc main_cst_3) : FVec Ideal S_ .f32))) (V (Proc.devRef .tc main_v7) : FVec Ideal S100000 .f32)) := by
  after_results_simp <;> rfl
theorem keep03_arg0 : StableHlo.after hostOps0_3 V (Proc.devRef .tc main_arg0) = V (Proc.devRef .tc main_arg0) := by after_results_simp
theorem keep03_arg1 : StableHlo.after hostOps0_3 V (Proc.devRef .tc main_arg1) = V (Proc.devRef .tc main_arg1) := by after_results_simp
theorem keep03_arg2 : StableHlo.after hostOps0_3 V (Proc.devRef .tc main_arg2) = V (Proc.devRef .tc main_arg2) := by after_results_simp
theorem keep03_arg3 : StableHlo.after hostOps0_3 V (Proc.devRef .tc main_arg3) = V (Proc.devRef .tc main_arg3) := by after_results_simp
theorem keep03_arg4 : StableHlo.after hostOps0_3 V (Proc.devRef .tc main_arg4) = V (Proc.devRef .tc main_arg4) := by after_results_simp
theorem keep03_arg5 : StableHlo.after hostOps0_3 V (Proc.devRef .tc main_arg5) = V (Proc.devRef .tc main_arg5) := by after_results_simp
theorem keep03_arg6 : StableHlo.after hostOps0_3 V (Proc.devRef .tc main_arg6) = V (Proc.devRef .tc main_arg6) := by after_results_simp
theorem keep03_v4 : StableHlo.after hostOps0_3 V (Proc.devRef .tc main_v4) = V (Proc.devRef .tc main_v4) := by after_results_simp
/-- The source-side factor: the inverse square root of the clamped count. -/
theorem factor_src : @Eq (FVec Ideal S100000 .f32) (StableHlo.after hostOps0_4 V (Proc.devRef .tc main_v9))
    (Host.rsqrt (V (Proc.devRef .tc main_v4) : FVec Ideal S100000 .f32)) := by
  after_results_simp <;> rfl
/-- The target-side factor. -/
theorem factor_dst : @Eq (FVec Ideal S100000 .f32) (StableHlo.after hostOps0_4 V (Proc.devRef .tc main_v10))
    (Host.rsqrt (V (Proc.devRef .tc main_v8) : FVec Ideal S100000 .f32)) := by
  after_results_simp <;> rfl
/-- The source-side factor as a column. -/
theorem factor_src_col : @Eq (FVec Ideal S100000x1 .f32) (StableHlo.after hostOps0_4 V (Proc.devRef .tc main_v11))
    (shapeCast S100000x1 (Host.rsqrt (V (Proc.devRef .tc main_v4) : FVec Ideal S100000 .f32)) shapeCasts_S100000_S100000x1) := by
  after_results_simp <;> rfl
theorem keep04_arg0 : StableHlo.after hostOps0_4 V (Proc.devRef .tc main_arg0) = V (Proc.devRef .tc main_arg0) := by after_results_simp
theorem keep04_arg1 : StableHlo.after hostOps0_4 V (Proc.devRef .tc main_arg1) = V (Proc.devRef .tc main_arg1) := by after_results_simp
theorem keep04_arg2 : StableHlo.after hostOps0_4 V (Proc.devRef .tc main_arg2) = V (Proc.devRef .tc main_arg2) := by after_results_simp
theorem keep04_arg3 : StableHlo.after hostOps0_4 V (Proc.devRef .tc main_arg3) = V (Proc.devRef .tc main_arg3) := by after_results_simp
theorem keep04_arg4 : StableHlo.after hostOps0_4 V (Proc.devRef .tc main_arg4) = V (Proc.devRef .tc main_arg4) := by after_results_simp
theorem keep04_arg5 : StableHlo.after hostOps0_4 V (Proc.devRef .tc main_arg5) = V (Proc.devRef .tc main_arg5) := by after_results_simp
theorem keep04_arg6 : StableHlo.after hostOps0_4 V (Proc.devRef .tc main_arg6) = V (Proc.devRef .tc main_arg6) := by after_results_simp

/-! ## Between the two halves of the first layer -/

/-- The neighbourhood sum of 128-feature rows: gathered at the sources, scatter-added into the targets. -/
theorem aggregate128 : @Eq (FVec Ideal S100000x128 .f32) (StableHlo.after hostOps1 V (Proc.devRef .tc main_v22))
    (Host.scatterAdd scatter_S100000x128_S1600000x1_S1600000x128_1_0_0_1
        (broadcastInDim S100000x128 ![] bcast_S_S100000x128 (constant (F := Ideal) S_ .f32 0x00000000#32))
        (broadcastInDim S1600000x1 ![0] bcast_S1600000_S1600000x1_0 (V (Proc.devRef .tc main_arg2) : IVec S1600000 32))
        (Host.gather gather_S100000x128_S1600000x1_S1600000x128_1_0_n_n_0_1_1128 (V (Proc.devRef .tc main_v12) : FVec Ideal S100000x128 .f32)
          (broadcastInDim S1600000x1 ![0] bcast_S1600000_S1600000x1_0 (select (cmpi .slt (V (Proc.devRef .tc main_arg1) : IVec S1600000 32) (broadcastInDim S1600000 ![] bcast_S_S1600000 (constantI S_ 32 0#32))) (addi (V (Proc.devRef .tc main_arg1) : IVec S1600000 32) (broadcastInDim S1600000 ![] bcast_S_S1600000 (constantI S_ 32 100000#32))) (V (Proc.devRef .tc main_arg1) : IVec S1600000 32))))) := by
  after_results_simp <;> rfl
theorem keep1_arg1 : StableHlo.after hostOps1 V (Proc.devRef .tc main_arg1) = V (Proc.devRef .tc main_arg1) := by after_results_simp
theorem keep1_arg2 : StableHlo.after hostOps1 V (Proc.devRef .tc main_arg2) = V (Proc.devRef .tc main_arg2) := by after_results_simp
theorem keep1_arg4 : StableHlo.after hostOps1 V (Proc.devRef .tc main_arg4) = V (Proc.devRef .tc main_arg4) := by after_results_simp
theorem keep1_arg5 : StableHlo.after hostOps1 V (Proc.devRef .tc main_arg5) = V (Proc.devRef .tc main_arg5) := by after_results_simp
theorem keep1_arg6 : StableHlo.after hostOps1 V (Proc.devRef .tc main_arg6) = V (Proc.devRef .tc main_arg6) := by after_results_simp
theorem keep1_v9 : StableHlo.after hostOps1 V (Proc.devRef .tc main_v9) = V (Proc.devRef .tc main_v9) := by after_results_simp
theorem keep1_v10 : StableHlo.after hostOps1 V (Proc.devRef .tc main_v10) = V (Proc.devRef .tc main_v10) := by after_results_simp
/-- The target-side factor as a column. -/
theorem factor_dst_col1 : @Eq (FVec Ideal S100000x1 .f32) (StableHlo.after hostOps1_1 V (Proc.devRef .tc main_call2_v0))
    (shapeCast S100000x1 (V (Proc.devRef .tc main_v10) : FVec Ideal S100000 .f32) shapeCasts_S100000_S100000x1) := by
  after_results_simp <;> rfl
/-- The first bias as a row. -/
theorem bias_row1 : @Eq (FVec Ideal S1x128 .f32) (StableHlo.after hostOps1_1 V (Proc.devRef .tc main_call2_v1))
    (shapeCast S1x128 (V (Proc.devRef .tc main_arg4) : FVec Ideal S128 .f32) shapeCasts_S128_S1x128) := by
  after_results_simp <;> rfl
theorem keep11_v22 : StableHlo.after hostOps1_1 V (Proc.devRef .tc main_v22) = V (Proc.devRef .tc main_v22) := by after_results_simp
theorem keep11_arg1 : StableHlo.after hostOps1_1 V (Proc.devRef .tc main_arg1) = V (Proc.devRef .tc main_arg1) := by after_results_simp
theorem keep11_arg2 : StableHlo.after hostOps1_1 V (Proc.devRef .tc main_arg2) = V (Proc.devRef .tc main_arg2) := by after_results_simp
theorem keep11_arg5 : StableHlo.after hostOps1_1 V (Proc.devRef .tc main_arg5) = V (Proc.devRef .tc main_arg5) := by after_results_simp
theorem keep11_arg6 : StableHlo.after hostOps1_1 V (Proc.devRef .tc main_arg6) = V (Proc.devRef .tc main_arg6) := by after_results_simp
theorem keep11_v9 : StableHlo.after hostOps1_1 V (Proc.devRef .tc main_v9) = V (Proc.devRef .tc main_v9) := by after_results_simp
theorem keep11_v10 : StableHlo.after hostOps1_1 V (Proc.devRef .tc main_v10) = V (Proc.devRef .tc main_v10) := by after_results_simp

/-! ## Before the second layer's first half -/

/-- The source-side factor as a column, again. -/
theorem factor_src_col2 : @Eq (FVec Ideal S100000x1 .f32) (StableHlo.after hostOps2 V (Proc.devRef .tc main_v24))
    (shapeCast S100000x1 (V (Proc.devRef .tc main_v9) : FVec Ideal S100000 .f32) shapeCasts_S100000_S100000x1) := by
  after_results_simp <;> rfl
theorem keep2_v23 : StableHlo.after hostOps2 V (Proc.devRef .tc main_v23) = V (Proc.devRef .tc main_v23) := by after_results_simp
theorem keep2_arg5 : StableHlo.after hostOps2 V (Proc.devRef .tc main_arg5) = V (Proc.devRef .tc main_arg5) := by after_results_simp
theorem keep2_arg1 : StableHlo.after hostOps2 V (Proc.devRef .tc main_arg1) = V (Proc.devRef .tc main_arg1) := by after_results_simp
theorem keep2_arg2 : StableHlo.after hostOps2 V (Proc.devRef .tc main_arg2) = V (Proc.devRef .tc main_arg2) := by after_results_simp
theorem keep2_arg6 : StableHlo.after hostOps2 V (Proc.devRef .tc main_arg6) = V (Proc.devRef .tc main_arg6) := by after_results_simp
theorem keep2_v10 : StableHlo.after hostOps2 V (Proc.devRef .tc main_v10) = V (Proc.devRef .tc main_v10) := by after_results_simp

/-! ## Between the two halves of the second layer -/

/-- The neighbourhood sum of 64-feature rows. -/
theorem aggregate64 : @Eq (FVec Ideal S100000x64 .f32) (StableHlo.after hostOps3 V (Proc.devRef .tc main_v35))
    (Host.scatterAdd scatter_S100000x64_S1600000x1_S1600000x64_1_0_0_1
        (broadcastInDim S100000x64 ![] bcast_S_S100000x64 (constant (F := Ideal) S_ .f32 0x00000000#32))
        (broadcastInDim S1600000x1 ![0] bcast_S1600000_S1600000x1_0 (V (Proc.devRef .tc main_arg2) : IVec S1600000 32))
        (Host.gather gather_S100000x64_S1600000x1_S1600000x64_1_0_n_n_0_1_164 (V (Proc.devRef .tc main_v25) : FVec Ideal S100000x64 .f32)
          (broadcastInDim S1600000x1 ![0] bcast_S1600000_S1600000x1_0 (select (cmpi .slt (V (Proc.devRef .tc main_arg1) : IVec S1600000 32) (broadcastInDim S1600000 ![] bcast_S_S1600000 (constantI S_ 32 0#32))) (addi (V (Proc.devRef .tc main_arg1) : IVec S1600000 32) (broadcastInDim S1600000 ![] bcast_S_S1600000 (constantI S_ 32 100000#32))) (V (Proc.devRef .tc main_arg1) : IVec S1600000 32))))) := by
  after_results_simp <;> rfl
theorem keep3_arg6 : StableHlo.after hostOps3 V (Proc.devRef .tc main_arg6) = V (Proc.devRef .tc main_arg6) := by after_results_simp
theorem keep3_v10 : StableHlo.after hostOps3 V (Proc.devRef .tc main_v10) = V (Proc.devRef .tc main_v10) := by after_results_simp
/-- The target-side factor as a column, again. -/
theorem factor_dst_col2 : @Eq (FVec Ideal S100000x1 .f32) (StableHlo.after hostOps3_1 V (Proc.devRef .tc main_call3_v0))
    (shapeCast S100000x1 (V (Proc.devRef .tc main_v10) : FVec Ideal S100000 .f32) shapeCasts_S100000_S100000x1) := by
  after_results_simp <;> rfl
/-- The second bias as a row. -/
theorem bias_row2 : @Eq (FVec Ideal S1x64 .f32) (StableHlo.after hostOps3_1 V (Proc.devRef .tc main_call3_v1))
    (shapeCast S1x64 (V (Proc.devRef .tc main_arg6) : FVec Ideal S64 .f32) shapeCasts_S64_S1x64) := by
  after_results_simp <;> rfl
theorem keep31_v35 : StableHlo.after hostOps3_1 V (Proc.devRef .tc main_v35) = V (Proc.devRef .tc main_v35) := by after_results_simp

end Cert.KernelIdeal.Hand

end
-- ==== Proof.Stages.lean ====
/-
  The contents of the buffers at each boundary between host operations and a region, named: each dense stage's array
  is the reference's stage of the same name, a function of the seven argument arrays alone.

  A region's output array is the specification of the arrays it finds; the specification of the reference's operands
  is the reference's stage. Between regions the host operations are the reference's own, so what they leave is the
  reference's next stage. The argument arrays and the two factor vectors are never overwritten and are read back
  unchanged at every boundary.
-/
import proofs.«174666_j8392366096425_1_alg».proof.Proof.PreAgg128
import proofs.«174666_j8392366096425_1_alg».proof.Proof.PreAgg64
import proofs.«174666_j8392366096425_1_alg».proof.Proof.PostAgg128
import proofs.«174666_j8392366096425_1_alg».proof.Proof.PostAgg64
import proofs.«174666_j8392366096425_1_alg».proof.Proof.Bridge
import proofs.«174666_j8392366096425_1_alg».proof.Proof.HostOps

set_option maxRecDepth 16384

noncomputable section

open Idealize.ShloMosaic Idealize.ShloMosaic.TcCoe Idealize.SL.Sem Idealize.ShloMosaic.StableHlo

namespace Cert.KernelIdeal.Hand

open Cert.KernelIdeal Cert.KernelIdeal.Gen Cert.ReferenceIdeal.Read Cert.Proof.Gcn

/-! ## The host operations' values, as functions of the edge lists and of the array they aggregate -/

/-- The source-side factor of every node: the inverse square root of its out-degree clamped at one. -/
def srcFactor (x1 : IVec S1600000 32) : FVec Ideal S100000 .f32 :=
  Host.rsqrt (maximumf (broadcastInDim S100000 ![] bcast_S_S100000 (id (constant (F := Ideal) S_ .f32 0x3F800000#32)))
    (Host.scatterAdd scatter_S100000_S1600000x1_S1600000_n_0_0_1
      (broadcastInDim S100000 ![] bcast_S_S100000 (constant (F := Ideal) S_ .f32 0x00000000#32))
      (broadcastInDim S1600000x1 ![0] bcast_S1600000_S1600000x1_0 x1)
      (broadcastInDim S1600000 ![] bcast_S_S1600000 (constant (F := Ideal) S_ .f32 0x3F800000#32))))

/-- The target-side factor of every node: the inverse square root of its in-degree clamped at one. -/
def dstFactor (x2 : IVec S1600000 32) : FVec Ideal S100000 .f32 :=
  Host.rsqrt (maximumf (broadcastInDim S100000 ![] bcast_S_S100000 (id (constant (F := Ideal) S_ .f32 0x3F800000#32)))
    (Host.scatterAdd scatter_S100000_S1600000x1_S1600000_n_0_0_1
      (broadcastInDim S100000 ![] bcast_S_S100000 (constant (F := Ideal) S_ .f32 0x00000000#32))
      (broadcastInDim S1600000x1 ![0] bcast_S1600000_S1600000x1_0 x2)
      (broadcastInDim S1600000 ![] bcast_S_S1600000 (constant (F := Ideal) S_ .f32 0x3F800000#32))))

/-- The neighbourhood sum of an array of 128-feature rows along the edges. -/
def neighbourSum128 (H : FVec Ideal S100000x128 .f32) (x1 x2 : IVec S1600000 32) : FVec Ideal S100000x128 .f32 :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 x2)
    (Host.gather gather_S100000x128_S1600000x1_S1600000x128_1_0_n_n_0_1_1128 H
      (broadcastInDim S1600000x1 ![0] bcast_S1600000_S1600000x1_0 (select (cmpi .slt x1 (broadcastInDim S1600000 ![] bcast_S_S1600000 (constantI S_ 32 0#32))) (addi x1 (broadcastInDim S1600000 ![] bcast_S_S1600000 (constantI S_ 32 100000#32))) x1)))

/-- The neighbourhood sum of an array of 64-feature rows along the edges. -/
def neighbourSum64 (H : FVec Ideal S100000x64 .f32) (x1 x2 : IVec S1600000 32) : FVec Ideal S100000x64 .f32 :=
  Host.scatterAdd scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 x2)
    (Host.gather gather_S100000x64_S1600000x1_S1600000x64_1_0_n_n_0_1_164 H
      (broadcastInDim S1600000x1 ![0] bcast_S1600000_S1600000x1_0 (select (cmpi .slt x1 (broadcastInDim S1600000 ![] bcast_S_S1600000 (constantI S_ 32 0#32))) (addi x1 (broadcastInDim S1600000 ![] bcast_S_S1600000 (constantI S_ 32 100000#32))) x1)))

/-- The reference computes the same source-side factor: the same operations on the same edge list. -/
theorem srcFactor_eq (x1 : IVec S1600000 32) : srcFactor x1 = val_main_v9 (F := Ideal) x1 := by
  unfold srcFactor val_main_v9 val_main_v4 val_main_call0_v1 val_main_call0_v0 val_main_cst_1 val_main_v3 val_main_v2 val_main_v1 val_main_cst_0 val_main_v0 val_main_cst
  rfl

/-- The reference computes the same target-side factor. -/
theorem dstFactor_eq (x2 : IVec S1600000 32) : dstFactor x2 = val_main_v10 (F := Ideal) x2 := by
  unfold dstFactor val_main_v10 val_main_v8 val_main_call1_v1 val_main_call1_v0 val_main_cst_3 val_main_v7 val_main_v6 val_main_v5 val_main_cst_2 val_main_v0 val_main_cst
  rfl

/-- The reference's first aggregated array is the neighbourhood sum of its first scaled product. -/
theorem neighbourSum128_eq (x0 : FVec Ideal S100000x128 .f32) (x1 x2 : IVec S1600000 32) (x3 : FVec Ideal S128x128 .f32) :
    neighbourSum128 (val_main_v14 (F := Ideal) x0 x1 x3) x1 x2 = val_main_v24 (F := Ideal) x0 x1 x2 x3 := by
  unfold neighbourSum128 val_main_v24 val_main_v22 val_main_cst_5 val_main_v23 val_main_v21 val_main_v20 val_main_v19 val_main_v16 val_main_v15 val_main_c val_main_v18 val_main_v17 val_main_c_4
  rfl

/-- The reference's second aggregated array is the neighbourhood sum of its second scaled product. -/
theorem neighbourSum64_eq (x0 : FVec Ideal S100000x128 .f32) (x1 x2 : IVec S1600000 32) (x3 : FVec Ideal S128x128 .f32)
    (x4 : FVec Ideal S128 .f32) (x5 : FVec Ideal S128x64 .f32) :
    neighbourSum64 (val_main_v35 (F := Ideal) x0 x1 x2 x3 x4 x5) x1 x2 = val_main_v45 (F := Ideal) x0 x1 x2 x3 x4 x5 := by
  unfold neighbourSum64 val_main_v45 val_main_v43 val_main_cst_8 val_main_v44 val_main_v42 val_main_v41 val_main_v40 val_main_v37 val_main_v36 val_main_c_6 val_main_v39 val_main_v38 val_main_c_7
  rfl

variable (m : (ℓ : Loc nD τ sig) → Buf (Elt Ideal) ℓ) (ρ : Dev nD → PrngReg)

/-! ## Before the first region -/

theorem W5_arg0 (c : Dev nD) : @Eq (FVec Ideal S100000x128 .f32) (W5 m ρ c (Proc.devRef .tc main_arg0)) (m ((c.tc : Thread nD τ).loc main_arg0)) := by
  dsimp only [W5, W4, W3, W2, W1]
  rw [keep04_arg0, keep03_arg0, keep02_arg0, keep01_arg0, keep0_arg0]
theorem W5_arg1 (c : Dev nD) : @Eq (IVec S1600000 32) (W5 m ρ c (Proc.devRef .tc main_arg1)) (m ((c.tc : Thread nD τ).loc main_arg1)) := by
  dsimp only [W5, W4, W3, W2, W1]
  rw [keep04_arg1, keep03_arg1, keep02_arg1, keep01_arg1, keep0_arg1]
theorem W5_arg2 (c : Dev nD) : @Eq (IVec S1600000 32) (W5 m ρ c (Proc.devRef .tc main_arg2)) (m ((c.tc : Thread nD τ).loc main_arg2)) := by
  dsimp only [W5, W4, W3, W2, W1]
  rw [keep04_arg2, keep03_arg2, keep02_arg2, keep01_arg2, keep0_arg2]
theorem W5_arg3 (c : Dev nD) : @Eq (FVec Ideal S128x128 .f32) (W5 m ρ c (Proc.devRef .tc main_arg3)) (m ((c.tc : Thread nD τ).loc main_arg3)) := by
  dsimp only [W5, W4, W3, W2, W1]
  rw [keep04_arg3, keep03_arg3, keep02_arg3, keep01_arg3, keep0_arg3]
theorem W5_arg4 (c : Dev nD) : @Eq (FVec Ideal S128 .f32) (W5 m ρ c (Proc.devRef .tc main_arg4)) (m ((c.tc : Thread nD τ).loc main_arg4)) := by
  dsimp only [W5, W4, W3, W2, W1]
  rw [keep04_arg4, keep03_arg4, keep02_arg4, keep01_arg4, keep0_arg4]
theorem W5_arg5 (c : Dev nD) : @Eq (FVec Ideal S128x64 .f32) (W5 m ρ c (Proc.devRef .tc main_arg5)) (m ((c.tc : Thread nD τ).loc main_arg5)) := by
  dsimp only [W5, W4, W3, W2, W1]
  rw [keep04_arg5, keep03_arg5, keep02_arg5, keep01_arg5, keep0_arg5]
theorem W5_arg6 (c : Dev nD) : @Eq (FVec Ideal S64 .f32) (W5 m ρ c (Proc.devRef .tc main_arg6)) (m ((c.tc : Thread nD τ).loc main_arg6)) := by
  dsimp only [W5, W4, W3, W2, W1]
  rw [keep04_arg6, keep03_arg6, keep02_arg6, keep01_arg6, keep0_arg6]

theorem W5_v9 (c : Dev nD) : @Eq (FVec Ideal S100000 .f32) (W5 m ρ c (Proc.devRef .tc main_v9)) (srcFactor (m ((c.tc : Thread nD τ).loc main_arg1))) := by
  dsimp only [W5, W4, W3, W2, W1]
  rw [factor_src, keep03_v4, keep02_v4, clamp_src, one_src, count_src]
  rfl

theorem W5_v10 (c : Dev nD) : @Eq (FVec Ideal S100000 .f32) (W5 m ρ c (Proc.devRef .tc main_v10)) (dstFactor (m ((c.tc : Thread nD τ).loc main_arg2))) := by
  dsimp only [W5, W4, W3, W2, W1]
  rw [factor_dst, clamp_dst, one_dst, count_dst, keep01_arg2, keep0_arg2, keep01_v0, ones]
  rfl

theorem W5_v11 (c : Dev nD) : @Eq (FVec Ideal S100000x1 .f32) (W5 m ρ c (Proc.devRef .tc main_v11)) (shapeCast S100000x1 (srcFactor (m ((c.tc : Thread nD τ).loc main_arg1))) shapeCasts_S100000_S100000x1) := by
  dsimp only [W5, W4, W3, W2, W1]
  rw [factor_src_col, keep03_v4, keep02_v4, clamp_src, one_src, count_src]
  rfl

/-! ## The first region: the first scaled product -/

theorem W6_v12 (c : Dev nD) : @Eq (FVec Ideal S100000x128 .f32) (W6 m ρ c (Proc.devRef .tc main_v12)) (val_main_v14 (F := Ideal) (m ((c.tc : Thread nD τ).loc main_arg0)) (m ((c.tc : Thread nD τ).loc main_arg1)) (m ((c.tc : Thread nD τ).loc main_arg3))) := by
  refine (W6_arr m ρ c 3).trans ((final0 (V5 m ρ) c).trans ?_)
  show scaledProduct128 (W5 m ρ c (Proc.devRef .tc main_arg0)) (W5 m ρ c (Proc.devRef .tc main_arg3)) (W5 m ρ c (Proc.devRef .tc main_v11)) = _
  rw [W5_arg0 m ρ c, W5_arg3 m ρ c, W5_v11 m ρ c, srcFactor_eq]
  exact Cert.ReferenceIdeal.Bridge.firstProduct _ _ _ _

theorem W6_arg1 (c : Dev nD) : @Eq (IVec S1600000 32) (W6 m ρ c (Proc.devRef .tc main_arg1)) (m ((c.tc : Thread nD τ).loc main_arg1)) := by
  exact (W6_of_ne m ρ c main_arg1 (by decide)).trans (W5_arg1 m ρ c)
theorem W6_arg2 (c : Dev nD) : @Eq (IVec S1600000 32) (W6 m ρ c (Proc.devRef .tc main_arg2)) (m ((c.tc : Thread nD τ).loc main_arg2)) := by
  exact (W6_of_ne m ρ c main_arg2 (by decide)).trans (W5_arg2 m ρ c)
theorem W6_arg4 (c : Dev nD) : @Eq (FVec Ideal S128 .f32) (W6 m ρ c (Proc.devRef .tc main_arg4)) (m ((c.tc : Thread nD τ).loc main_arg4)) := by
  exact (W6_of_ne m ρ c main_arg4 (by decide)).trans (W5_arg4 m ρ c)
theorem W6_arg5 (c : Dev nD) : @Eq (FVec Ideal S128x64 .f32) (W6 m ρ c (Proc.devRef .tc main_arg5)) (m ((c.tc : Thread nD τ).loc main_arg5)) := by
  exact (W6_of_ne m ρ c main_arg5 (by decide)).trans (W5_arg5 m ρ c)
theorem W6_arg6 (c : Dev nD) : @Eq (FVec Ideal S64 .f32) (W6 m ρ c (Proc.devRef .tc main_arg6)) (m ((c.tc : Thread nD τ).loc main_arg6)) := by
  exact (W6_of_ne m ρ c main_arg6 (by decide)).trans (W5_arg6 m ρ c)
theorem W6_v9 (c : Dev nD) : @Eq (FVec Ideal S100000 .f32) (W6 m ρ c (Proc.devRef .tc main_v9)) (srcFactor (m ((c.tc : Thread nD τ).loc main_arg1))) := by
  exact (W6_of_ne m ρ c main_v9 (by decide)).trans (W5_v9 m ρ c)
theorem W6_v10 (c : Dev nD) : @Eq (FVec Ideal S100000 .f32) (W6 m ρ c (Proc.devRef .tc main_v10)) (dstFactor (m ((c.tc : Thread nD τ).loc main_arg2))) := by
  exact (W6_of_ne m ρ c main_v10 (by decide)).trans (W5_v10 m ρ c)

/-! ## Before the second region: the first neighbourhood sum -/

theorem W8_v22 (c : Dev nD) : @Eq (FVec Ideal S100000x128 .f32) (W8 m ρ c (Proc.devRef .tc main_v22)) (val_main_v24 (F := Ideal) (m ((c.tc : Thread nD τ).loc main_arg0)) (m ((c.tc : Thread nD τ).loc main_arg1)) (m ((c.tc : Thread nD τ).loc main_arg2)) (m ((c.tc : Thread nD τ).loc main_arg3))) := by
  dsimp only [W8, W7]
  rw [keep11_v22, aggregate128, W6_arg2 m ρ c, W6_v12 m ρ c, W6_arg1 m ρ c]
  exact neighbourSum128_eq _ _ _ _

theorem W8_call2_v0 (c : Dev nD) : @Eq (FVec Ideal S100000x1 .f32) (W8 m ρ c (Proc.devRef .tc main_call2_v0)) (shapeCast S100000x1 (dstFactor (m ((c.tc : Thread nD τ).loc main_arg2))) shapeCasts_S100000_S100000x1) := by
  dsimp only [W8, W7]
  rw [factor_dst_col1, keep1_v10, W6_v10 m ρ c]

theorem W8_call2_v1 (c : Dev nD) : @Eq (FVec Ideal S1x128 .f32) (W8 m ρ c (Proc.devRef .tc main_call2_v1)) (shapeCast S1x128 (m ((c.tc : Thread nD τ).loc main_arg4)) shapeCasts_S128_S1x128) := by
  dsimp only [W8, W7]
  rw [bias_row1, keep1_arg4, W6_arg4 m ρ c]

theorem W8_arg1 (c : Dev nD) : @Eq (IVec S1600000 32) (W8 m ρ c (Proc.devRef .tc main_arg1)) (m ((c.tc : Thread nD τ).loc main_arg1)) := by
  dsimp only [W8, W7]
  rw [keep11_arg1, keep1_arg1, W6_arg1 m ρ c]
theorem W8_arg2 (c : Dev nD) : @Eq (IVec S1600000 32) (W8 m ρ c (Proc.devRef .tc main_arg2)) (m ((c.tc : Thread nD τ).loc main_arg2)) := by
  dsimp only [W8, W7]
  rw [keep11_arg2, keep1_arg2, W6_arg2 m ρ c]
theorem W8_arg5 (c : Dev nD) : @Eq (FVec Ideal S128x64 .f32) (W8 m ρ c (Proc.devRef .tc main_arg5)) (m ((c.tc : Thread nD τ).loc main_arg5)) := by
  dsimp only [W8, W7]
  rw [keep11_arg5, keep1_arg5, W6_arg5 m ρ c]
theorem W8_arg6 (c : Dev nD) : @Eq (FVec Ideal S64 .f32) (W8 m ρ c (Proc.devRef .tc main_arg6)) (m ((c.tc : Thread nD τ).loc main_arg6)) := by
  dsimp only [W8, W7]
  rw [keep11_arg6, keep1_arg6, W6_arg6 m ρ c]
theorem W8_v9 (c : Dev nD) : @Eq (FVec Ideal S100000 .f32) (W8 m ρ c (Proc.devRef .tc main_v9)) (srcFactor (m ((c.tc : Thread nD τ).loc main_arg1))) := by
  dsimp only [W8, W7]
  rw [keep11_v9, keep1_v9, W6_v9 m ρ c]
theorem W8_v10 (c : Dev nD) : @Eq (FVec Ideal S100000 .f32) (W8 m ρ c (Proc.devRef .tc main_v10)) (dstFactor (m ((c.tc : Thread nD τ).loc main_arg2))) := by
  dsimp only [W8, W7]
  rw [keep11_v10, keep1_v10, W6_v10 m ρ c]

/-! ## The second region: the first layer's output -/

theorem W9_v23 (c : Dev nD) : @Eq (FVec Ideal S100000x128 .f32) (W9 m ρ c (Proc.devRef .tc main_v23)) (val_main_v31 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) := by
  refine (W9_arr m ρ c 3).trans ((final1 (V8 m ρ) c).trans ?_)
  show scaledBiasedClamped128 (W8 m ρ c (Proc.devRef .tc main_v22)) (W8 m ρ c (Proc.devRef .tc main_call2_v0)) (W8 m ρ c (Proc.devRef .tc main_call2_v1)) = _
  rw [W8_v22 m ρ c, W8_call2_v0 m ρ c, W8_call2_v1 m ρ c, dstFactor_eq]
  exact Cert.ReferenceIdeal.Bridge.firstLayer _ _ _ _ _ _ _

theorem W9_arg1 (c : Dev nD) : @Eq (IVec S1600000 32) (W9 m ρ c (Proc.devRef .tc main_arg1)) (m ((c.tc : Thread nD τ).loc main_arg1)) := by
  exact (W9_of_ne m ρ c main_arg1 (by decide)).trans (W8_arg1 m ρ c)
theorem W9_arg2 (c : Dev nD) : @Eq (IVec S1600000 32) (W9 m ρ c (Proc.devRef .tc main_arg2)) (m ((c.tc : Thread nD τ).loc main_arg2)) := by
  exact (W9_of_ne m ρ c main_arg2 (by decide)).trans (W8_arg2 m ρ c)
theorem W9_arg5 (c : Dev nD) : @Eq (FVec Ideal S128x64 .f32) (W9 m ρ c (Proc.devRef .tc main_arg5)) (m ((c.tc : Thread nD τ).loc main_arg5)) := by
  exact (W9_of_ne m ρ c main_arg5 (by decide)).trans (W8_arg5 m ρ c)
theorem W9_arg6 (c : Dev nD) : @Eq (FVec Ideal S64 .f32) (W9 m ρ c (Proc.devRef .tc main_arg6)) (m ((c.tc : Thread nD τ).loc main_arg6)) := by
  exact (W9_of_ne m ρ c main_arg6 (by decide)).trans (W8_arg6 m ρ c)
theorem W9_v9 (c : Dev nD) : @Eq (FVec Ideal S100000 .f32) (W9 m ρ c (Proc.devRef .tc main_v9)) (srcFactor (m ((c.tc : Thread nD τ).loc main_arg1))) := by
  exact (W9_of_ne m ρ c main_v9 (by decide)).trans (W8_v9 m ρ c)
theorem W9_v10 (c : Dev nD) : @Eq (FVec Ideal S100000 .f32) (W9 m ρ c (Proc.devRef .tc main_v10)) (dstFactor (m ((c.tc : Thread nD τ).loc main_arg2))) := by
  exact (W9_of_ne m ρ c main_v10 (by decide)).trans (W8_v10 m ρ c)

/-! ## Before the third region -/

theorem W10_v23 (c : Dev nD) : @Eq (FVec Ideal S100000x128 .f32) (W10 m ρ c (Proc.devRef .tc main_v23)) (val_main_v31 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) := by
  dsimp only [W10]
  rw [keep2_v23, W9_v23 m ρ c]

theorem W10_v24 (c : Dev nD) : @Eq (FVec Ideal S100000x1 .f32) (W10 m ρ c (Proc.devRef .tc main_v24)) (shapeCast S100000x1 (srcFactor (m ((c.tc : Thread nD τ).loc main_arg1))) shapeCasts_S100000_S100000x1) := by
  dsimp only [W10]
  rw [factor_src_col2, W9_v9 m ρ c]

theorem W10_arg5 (c : Dev nD) : @Eq (FVec Ideal S128x64 .f32) (W10 m ρ c (Proc.devRef .tc main_arg5)) (m ((c.tc : Thread nD τ).loc main_arg5)) := by
  dsimp only [W10]
  rw [keep2_arg5, W9_arg5 m ρ c]
theorem W10_arg1 (c : Dev nD) : @Eq (IVec S1600000 32) (W10 m ρ c (Proc.devRef .tc main_arg1)) (m ((c.tc : Thread nD τ).loc main_arg1)) := by
  dsimp only [W10]
  rw [keep2_arg1, W9_arg1 m ρ c]
theorem W10_arg2 (c : Dev nD) : @Eq (IVec S1600000 32) (W10 m ρ c (Proc.devRef .tc main_arg2)) (m ((c.tc : Thread nD τ).loc main_arg2)) := by
  dsimp only [W10]
  rw [keep2_arg2, W9_arg2 m ρ c]
theorem W10_arg6 (c : Dev nD) : @Eq (FVec Ideal S64 .f32) (W10 m ρ c (Proc.devRef .tc main_arg6)) (m ((c.tc : Thread nD τ).loc main_arg6)) := by
  dsimp only [W10]
  rw [keep2_arg6, W9_arg6 m ρ c]
theorem W10_v10 (c : Dev nD) : @Eq (FVec Ideal S100000 .f32) (W10 m ρ c (Proc.devRef .tc main_v10)) (dstFactor (m ((c.tc : Thread nD τ).loc main_arg2))) := by
  dsimp only [W10]
  rw [keep2_v10, W9_v10 m ρ c]

/-! ## The third region: the second scaled product -/

theorem W11_v25 (c : Dev nD) : @Eq (FVec Ideal S100000x64 .f32) (W11 m ρ c (Proc.devRef .tc main_v25)) (val_main_v35 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) := by
  refine (W11_arr m ρ c 3).trans ((final2 (V10 m ρ) c).trans ?_)
  show scaledProduct64 (W10 m ρ c (Proc.devRef .tc main_v23)) (W10 m ρ c (Proc.devRef .tc main_arg5)) (W10 m ρ c (Proc.devRef .tc main_v24)) = _
  rw [W10_v23 m ρ c, W10_arg5 m ρ c, W10_v24 m ρ c, srcFactor_eq]
  exact Cert.ReferenceIdeal.Bridge.secondProduct _ _ _ _ _ _ _

theorem W11_arg1 (c : Dev nD) : @Eq (IVec S1600000 32) (W11 m ρ c (Proc.devRef .tc main_arg1)) (m ((c.tc : Thread nD τ).loc main_arg1)) := by
  exact (W11_of_ne m ρ c main_arg1 (by decide)).trans (W10_arg1 m ρ c)
theorem W11_arg2 (c : Dev nD) : @Eq (IVec S1600000 32) (W11 m ρ c (Proc.devRef .tc main_arg2)) (m ((c.tc : Thread nD τ).loc main_arg2)) := by
  exact (W11_of_ne m ρ c main_arg2 (by decide)).trans (W10_arg2 m ρ c)
theorem W11_arg6 (c : Dev nD) : @Eq (FVec Ideal S64 .f32) (W11 m ρ c (Proc.devRef .tc main_arg6)) (m ((c.tc : Thread nD τ).loc main_arg6)) := by
  exact (W11_of_ne m ρ c main_arg6 (by decide)).trans (W10_arg6 m ρ c)
theorem W11_v10 (c : Dev nD) : @Eq (FVec Ideal S100000 .f32) (W11 m ρ c (Proc.devRef .tc main_v10)) (dstFactor (m ((c.tc : Thread nD τ).loc main_arg2))) := by
  exact (W11_of_ne m ρ c main_v10 (by decide)).trans (W10_v10 m ρ c)

/-! ## Before the fourth region: the second neighbourhood sum -/

theorem W13_v35 (c : Dev nD) : @Eq (FVec Ideal S100000x64 .f32) (W13 m ρ c (Proc.devRef .tc main_v35)) (val_main_v45 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) := by
  dsimp only [W13, W12]
  rw [keep31_v35, aggregate64, W11_arg2 m ρ c, W11_v25 m ρ c, W11_arg1 m ρ c]
  exact neighbourSum64_eq _ _ _ _ _ _

theorem W13_call3_v0 (c : Dev nD) : @Eq (FVec Ideal S100000x1 .f32) (W13 m ρ c (Proc.devRef .tc main_call3_v0)) (shapeCast S100000x1 (dstFactor (m ((c.tc : Thread nD τ).loc main_arg2))) shapeCasts_S100000_S100000x1) := by
  dsimp only [W13, W12]
  rw [factor_dst_col2, keep3_v10, W11_v10 m ρ c]

theorem W13_call3_v1 (c : Dev nD) : @Eq (FVec Ideal S1x64 .f32) (W13 m ρ c (Proc.devRef .tc main_call3_v1)) (shapeCast S1x64 (m ((c.tc : Thread nD τ).loc main_arg6)) shapeCasts_S64_S1x64) := by
  dsimp only [W13, W12]
  rw [bias_row2, keep3_arg6, W11_arg6 m ρ c]

/-! ## The fourth region: the result -/

/-- The result buffer after the last region is the reference's result, as a function of the seven argument arrays. -/
theorem W14_v36 (c : Dev nD) : @Eq (FVec Ideal S100000x64 .f32) (W14 m ρ c (Proc.devRef .tc main_v36)) (val_main_v51 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) := by
  refine (W14_arr m ρ c 3).trans ((final3 (V13 m ρ) c).trans ?_)
  show scaledBiased64 (W13 m ρ c (Proc.devRef .tc main_v35)) (W13 m ρ c (Proc.devRef .tc main_call3_v0)) (W13 m ρ c (Proc.devRef .tc main_call3_v1)) = _
  rw [W13_v35 m ρ c, W13_call3_v0 m ρ c, W13_call3_v1 m ρ c, dstFactor_eq]
  exact Cert.ReferenceIdeal.Bridge.secondLayer _ _ _ _ _ _ _ _ _

end Cert.KernelIdeal.Hand

end
-- ==== Proof.lean ====
/-
  A two-layer graph convolution, `D_in^(-1/2) Aᵀ (D_out^(-1/2) X W) + b` with a clamp at zero between the layers,
  computed by four row-blocked kernels around the host's gathers and scatter-adds, against the same network written
  with whole-array operations.

  On the extended reals the two programs compute the same function without any rearrangement of arithmetic. The
  degree counts, their clamp at one and inverse square roots, and the neighbourhood sums (a gather along the edges'
  sources, a scatter-add into their targets) are the same host operations on both sides. Each dense half is a matrix
  product scaled row by row, or a row-wise scaling plus a bias (then a clamp): the kernels compute it on twenty
  blocks of 5000 rows that tile the array, with the 128 input features contracted whole inside each block, so every
  entry is the same sum of the same products in both programs; the narrowing of the product's operands to a
  shorter float format is the identity on the extended reals. No law that could fail at an infinity is used, so the
  precondition (finite inputs) is never opened.

  The three frames are the generated ones (the reference's is its generated run with the result dropped); the
  idealization rewrote nothing, so its preservation claim is trivial; the value claim puts the kernel program's
  result (read off the last region's write-backs, boundary by boundary) and the reference's result (its generated
  run) at one term: the reference's last stage of the seven argument arrays.
-/
import proofs.«174666_j8392366096425_1_alg».proof.Defs
import proofs.«174666_j8392366096425_1_alg».proof.Proof.Gen.Kernel
import proofs.«174666_j8392366096425_1_alg».proof.Proof.Gen.Kernel.Frame
import proofs.«174666_j8392366096425_1_alg».proof.Proof.Gen.KernelIdeal
import proofs.«174666_j8392366096425_1_alg».proof.Proof.Gen.KernelIdeal.Frame
import proofs.«174666_j8392366096425_1_alg».proof.Proof.Gen.ReferenceIdeal
import proofs.«174666_j8392366096425_1_alg».proof.Proof.Gen.Pre_finite_inputs
import proofs.«174666_j8392366096425_1_alg».proof.Proof.Gen.ReferenceIdeal.Run
import proofs.«174666_j8392366096425_1_alg».proof.Proof.Gen.ReferenceIdeal.Read
import proofs.«174666_j8392366096425_1_alg».proof.Proof.ResultRun
import proofs.«174666_j8392366096425_1_alg».proof.Proof.Stages
import Idealize.ShloMosaic.Adequacy
import Idealize.ShloMosaic.Init

noncomputable section

namespace Cert.Proof

open Idealize.ShloMosaic Idealize.SL.Sem

/-- The word-level kernel program runs, faults nowhere and leaves its arguments unchanged. -/
theorem frame_kernel : Cert.frame_Kernel := fun m ρ _ => Cert.Kernel.Gen.frame m ρ

/-- So does the kernel program read on the extended reals. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the seven arguments both programs end with the same result array: the reference's last
    stage of those arguments. -/
theorem algebraic : Cert.algebraic_KernelIdeal_ReferenceIdeal := by
  intro m ρ m' ρ' _ hagree
  refine ⟨fun c => Cert.ReferenceIdeal.Read.val_main_v51 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.Hand.W14_v36 m ρ c), (h c).2⟩)
      (Cert.KernelIdeal.Hand.run_result m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v51_eq]
    obtain ⟨e0, e1, e2, e3, e4, e5, e6⟩ := hagree c
    rw [e0, e1, e2, e3, e4, e5, e6]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
